-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg5 : FVec F S2x128 .f32) (main_arg6 : FVec F S128 .f32) (main_arg7 : FVec F S128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S2x128x128 .f32) (main_arg5 : FVec F S2x128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S1x128 : Shape := ⟨2, ![1, 128]⟩
abbrev S5000x128 : Shape := ⟨2, ![5000, 128]⟩
abbrev S1600000x128 : Shape := ⟨2, ![1600000, 128]⟩
abbrev S100000x1 : Shape := ⟨2, ![100000, 1]⟩
abbrev S5000x1 : Shape := ⟨2, ![5000, 1]⟩
abbrev S5000 : Shape := ⟨1, ![5000]⟩

abbrev nBuf : Space → Nat
  | .hbm => 96
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S2x128x128, .f32⟩
  | .hbm, ⟨5, _⟩ => ⟨S2x128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S128, .f32⟩
  | .hbm, ⟨65, _⟩ => ⟨S1x128x128, .f32⟩
  | .hbm, ⟨66, _⟩ => ⟨S128x128, .f32⟩
  | .hbm, ⟨67, _⟩ => ⟨S100000x1, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S1600000x1, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S1x128, .f32⟩
  | .hbm, ⟨90, _⟩ => ⟨S128, .f32⟩
  | .hbm, ⟨91, _⟩ => ⟨S100000x1, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52_0 : Ref sig .tc := ⟨.hbm, 71, rfl⟩
abbrev main_v52_1 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22
abbrev cc1_sem9_0 : DmaSem sig := 23
abbrev cc1_sem9_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem4_1 : DmaSem sig := 33
abbrev cc2_sem5_0 : DmaSem sig := 34
abbrev cc2_sem6_0 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S2x128x128_S1x128x128_0_0_0 : S2x128x128.Slices ![0, 0, 0] S1x128x128
  shapeCasts_S1x128x128_S128x128 : S1x128x128.ShapeCasts S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reduces_S5000x128_S5000 : S5000x128.Reduces [1] S5000
  shapeCasts_S5000_S5000x1 : S5000.ShapeCasts S5000x1
  slices_S2x128_S1x128_1_0 : S2x128.Slices ![1, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30_0) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v52_1) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52_0) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v72) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1x128x128 : Shape := ⟨3, ![1, 128, 128]⟩
abbrev S1600000x128 : Shape := ⟨2, ![1600000, 128]⟩
abbrev S100000x1 : Shape := ⟨2, ![100000, 1]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S2x128x128, .f32⟩
  | 5 => ⟨S2x128, .f32⟩
  | 6 => ⟨S128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S1x128x128, .f32⟩
  | 30 => ⟨S128x128, .f32⟩
  | 31 => ⟨S1x128, .f32⟩
  | 32 => ⟨S128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S_, .f32⟩
  | 96 => ⟨S100000x1, .f32⟩
  | 97 => ⟨S100000x1, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S1x128x128, .f32⟩
  | 111 => ⟨S128x128, .f32⟩
  | 112 => ⟨S1x128, .f32⟩
  | 113 => ⟨S128, .f32⟩
  | 114 => ⟨S100000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S1600000, .f32⟩
  | 6 => ⟨S1600000x1, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S1600000x128, .f32⟩
  | 17 => ⟨S1600000x128, .f32⟩
  | 18 => ⟨S_, .f32⟩
  | 19 => ⟨S100000x128, .f32⟩
  | 20 => ⟨S1600000x1, .i32⟩
  | 21 => ⟨S100000x128, .f32⟩
  | 22 => ⟨S100000, .f32⟩
  | 23 => ⟨S100000x1, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S100000x128, .f32⟩
  | 31 => ⟨S_, .f32⟩
  | 32 => ⟨S100000, .f32⟩
  | 33 => ⟨S100000x1, .f32⟩
  | 34 => ⟨S_, .f32⟩
  | 35 => ⟨S100000x1, .f32⟩
  | 36 => ⟨S100000x1, .f32⟩
  | 37 => ⟨S100000x128, .f32⟩
  | 38 => ⟨S100000x128, .f32⟩
  | 39 => ⟨S100000x128, .f32⟩
  | 40 => ⟨S_, .f32⟩
  | 41 => ⟨S100000, .f32⟩
  | 42 => ⟨S100000x1, .f32⟩
  | 43 => ⟨S_, .f32⟩
  | 44 => ⟨S100000x1, .f32⟩
  | 45 => ⟨S100000x1, .f32⟩
  | 46 => ⟨S100000x128, .f32⟩
  | 47 => ⟨S100000x128, .f32⟩
  | 48 => ⟨S_, .f32⟩
  | 49 => ⟨S100000x1, .f32⟩
  | 50 => ⟨S100000x1, .f32⟩
  | 51 => ⟨S100000x1, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_call1_cst : Ref sig .tc := ⟨.hbm, 107, rfl⟩
abbrev main_call1_v0 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_13 : Ref sig .tc := ⟨.hbm, 115, rfl⟩
abbrev main_v88 : Ref sig .tc := ⟨.hbm, 116, rfl⟩
abbrev main_v89 : Ref sig .tc := ⟨.hbm, 117, rfl⟩
abbrev main_c_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_15 : Ref sig .tc := ⟨.hbm, 124, rfl⟩
abbrev main_v95 : Ref sig .tc := ⟨.hbm, 125, rfl⟩
abbrev main_v96 : Ref sig .tc := ⟨.hbm, 126, rfl⟩
abbrev main_c_16 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_17 : Ref sig .tc := ⟨.hbm, 135, rfl⟩
abbrev main_v104 : Ref sig .tc := ⟨.hbm, 136, rfl⟩
abbrev main_v105 : Ref sig .tc := ⟨.hbm, 137, rfl⟩
abbrev main_c_18 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_19 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_20 : Ref sig .tc := ⟨.hbm, 159, rfl⟩
abbrev main_v125 : Ref sig .tc := ⟨.hbm, 160, rfl⟩
abbrev main_v126 : Ref sig .tc := ⟨.hbm, 161, rfl⟩
abbrev main_cst_21 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_22 : Ref sig .tc := ⟨.hbm, 168, rfl⟩
abbrev main_v132 : Ref sig .tc := ⟨.hbm, 169, rfl⟩
abbrev main_v133 : Ref sig .tc := ⟨.hbm, 170, rfl⟩
abbrev main_cst_23 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_24 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_call2_cst : Ref sig .tc := ⟨.hbm, 188, rfl⟩
abbrev main_call2_v0 : Ref sig .tc := ⟨.hbm, 189, rfl⟩
abbrev main_v149 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S2x128x128_S1x128x128_1_0_0 : S2x128x128.Slices ![1, 0, 0] S1x128x128
  slices_S2x128_S1x128_1_0 : S2x128.Slices ![1, 0] S1x128
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named.

  @main is three launches among stretches of array operations.  Every weakly fair execution ends, nothing faults, and
  the memory it ends in holds, at every buffer that outlives the launches, the contents obtained by folding the
  stretches and the launches' write-backs over the memory it started from; so the result buffer holds the third
  launch's output array and the arguments hold what they held at the start.
-/
import proofs.«129568_j29695403884713_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents of it, and the
    arguments as they started. -/
theorem run_out : θ_run defs (onTc (τ := τ) (main (F := F))) ⟨m, fun _ => 0, ρ⟩ (fun r => ∀ c : Dev nD,
      r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v72 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunOut

end
-- ==== Proof.Spec.lean ====
/-
  The graph network both programs compute, written once as whole-array functions.

  A node array X (100000 rows of 128 features) is projected, X0 = max(X·Wp + bp, 0), and then passed through two
  layers.  A layer takes the node array X, its product XW = X·W with the layer's weights, and the edge list e:
  every edge (s, d) sends the row XW[s], scaled by 1/sqrt(deg s · deg d), to node d, where deg counts a node's
  incoming edges plus one; the rows arriving at a node are summed (agg); the node's own row is added scaled by
  1/deg (dsq), then the layer's bias and the layer's input row (pre); the row is normalised to mean zero and
  variance one over its 128 features, scaled by g and shifted by beta, and negative entries are cut to zero (ln).
  The edge-dependent parts (deg, the scaling of an edge, the gathering of rows along edges and their summation
  at the target nodes) are written as the array operations themselves (a scatter that adds, a gather, the elementwise product): they
  enter only as functions of the edge list and of the rows they are applied to.
-/
import proofs.«129568_j29695403884713_2_alg».proof.Proof.Gen.ReferenceIdeal

noncomputable section

namespace Cert.Gcn

open Cert.ReferenceIdeal Cert.ReferenceIdeal.Gen Idealize.ShloMosaic

variable {F : FTy → Type} [FloatOps F]

/-- A node array: 100000 rows of 128 features. -/
abbrev Mat (F : FTy → Type) := (⟨S100000x128, .f32⟩ : BufTy).Contents (Elt F)
/-- A weight matrix, 128 by 128. -/
abbrev Wt (F : FTy → Type) := (⟨S128x128, .f32⟩ : BufTy).Contents (Elt F)
/-- A feature vector of length 128 (a bias, a scale, a shift). -/
abbrev Row (F : FTy → Type) := (⟨S128, .f32⟩ : BufTy).Contents (Elt F)
/-- One number per node. -/
abbrev NVec (F : FTy → Type) := (⟨S100000, .f32⟩ : BufTy).Contents (Elt F)
/-- One number per node, as a column. -/
abbrev NCol (F : FTy → Type) := (⟨S100000x1, .f32⟩ : BufTy).Contents (Elt F)
/-- The edge list: row 0 the sources, row 1 the targets. -/
abbrev Edges (F : FTy → Type) := (⟨S2x1600000, .i32⟩ : BufTy).Contents (Elt F)
/-- One integer per edge. -/
abbrev EIdx (F : FTy → Type) := (⟨S1600000, .i32⟩ : BufTy).Contents (Elt F)

/-- The all-zero node array. -/
def zeroMat : Mat F := broadcastInDim S100000x128 ![] bcast_S_S100000x128 (constant S_ .f32 0x00000000#32)
/-- Negative entries cut to zero. -/
def relu (Y : Mat F) : Mat F := maximumf Y zeroMat
/-- The product of a node array with a weight matrix. -/
def dense (X : Mat F) (W : Wt F) : Mat F := Host.dotGeneral dot_S100000x128_S128x128_S100000x128_1_0_0_1_n_n none X W
/-- A feature vector repeated down all rows. -/
def rowB (b : Row F) : Mat F :=
  broadcastInDim S100000x128 ![0, 1] bcast_S1x128_S100000x128_0_1 (broadcastInDim S1x128 ![1] bcast_S128_S1x128_1 b)
/-- A column repeated along all 128 features. -/
def spread (c : NCol F) : Mat F := broadcastInDim S100000x128 ![0, 1] bcast_S100000x1_S100000x128_0_1 c
/-- A per-node number repeated along all 128 features. -/
def colB (d : NVec F) : Mat F := spread (broadcastInDim S100000x1 ![0] bcast_S100000_S100000x1_0 d)
/-- The input projection: max(X·W + b, 0). -/
def proj (X : Mat F) (W : Wt F) (b : Row F) : Mat F := relu (addf (dense X W) (rowB b))
/-- What a layer normalises: the aggregated rows, plus the node's own row scaled by d, plus the bias, plus the input. -/
def pre (A XW : Mat F) (d : NVec F) (b : Row F) (RES : Mat F) : Mat F := addf (addf (addf A (mulf (colB d) XW)) (rowB b)) RES
/-- The mean of every row over its 128 features, as a column. -/
def meanCol (Y : Mat F) : NCol F :=
  Host.divf (broadcastInDim S100000x1 ![0] bcast_S100000_S100000x1_0 (Host.reduceAdd Y (constant S_ .f32 0x00000000#32) reducesTo_S100000x128_S100000_d1 h_S_))
    (broadcastInDim S100000x1 ![] bcast_S_S100000x1 (constant S_ .f32 0x43000000#32))
/-- Every row minus its mean. -/
def centred (Y : Mat F) : Mat F := subf Y (spread (meanCol Y))
/-- 1/sqrt(variance + eps) of every row, as a column. -/
def invStd (Y : Mat F) : NCol F :=
  Host.rsqrt (addf (meanCol (mulf (centred Y) (centred Y))) (broadcastInDim S100000x1 ![] bcast_S_S100000x1 (constant S_ .f32 0x3727C5AC#32)))
/-- Row normalisation, scale, shift, and the cut at zero. -/
def ln (Y : Mat F) (g beta : Row F) : Mat F :=
  relu (addf (mulf (mulf (centred Y) (spread (invStd Y))) (rowB g)) (rowB beta))

/-- Row k of the edge list (k = 0 the sources, k = 1 the targets). -/
def srcOf (e : Edges F) : EIdx F :=
  shapeCast _ (extractStridedSlice S1x1600000 ![0, 0] e slices_S2x1600000_S1x1600000_0_0) shapeCasts_S1x1600000_S1600000
def dstOf (e : Edges F) : EIdx F :=
  shapeCast _ (extractStridedSlice S1x1600000 ![1, 0] e slices_S2x1600000_S1x1600000_1_0) shapeCasts_S1x1600000_S1600000
/-- Node numbers made ready for a gather: a negative number counts from the end, and the list becomes a column. -/
def wrap (v : EIdx F) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The targets as a column of scatter indices. -/
def dstCol (e : Edges F) : (⟨S1600000x1, .i32⟩ : BufTy).Contents (Elt F) :=
  broadcastInDim S1600000x1 ![0] bcast_S1600000_S1600000x1_0 (dstOf e)
/-- 1/sqrt(deg) per node, deg = incoming edges + 1. -/
def dinv (e : Edges F) : NVec F :=
  Host.rsqrt (addf (Host.scatterAdd scatter_S100000_S1600000x1_S1600000_n_0_0_1
      (broadcastInDim S100000 ![] bcast_S_S100000 (constant S_ .f32 0x00000000#32)) (dstCol e)
      (broadcastInDim S1600000 ![] bcast_S_S1600000 (constant S_ .f32 0x3F800000#32)))
    (broadcastInDim S100000 ![] bcast_S_S100000 (constant S_ .f32 0x3F800000#32)))
/-- 1/deg per node. -/
def dsq (e : Edges F) : NVec F := mulf (dinv e) (dinv e)
/-- The scale of every edge: 1/sqrt(deg source · deg target). -/
def norm (e : Edges F) : (⟨S1600000, .f32⟩ : BufTy).Contents (Elt F) :=
  mulf (Host.gather gather_S100000_S1600000x1_S1600000_n_0_n_n_0_1_1 (dinv e) (wrap (srcOf e)))
    (Host.gather gather_S100000_S1600000x1_S1600000_n_0_n_n_0_1_1 (dinv e) (wrap (dstOf e)))
/-- The rows of XW sent along the edges, scaled, and summed at the targets. -/
def agg (e : Edges F) (XW : Mat F) : Mat F :=
  Host.scatterAdd scatter_S100000x128_S1600000x1_S1600000x128_1_0_0_1 zeroMat (dstCol e)
    (mulf (broadcastInDim S1600000x128 ![0, 1] bcast_S1600000x1_S1600000x128_0_1
        (broadcastInDim S1600000x1 ![0] bcast_S1600000_S1600000x1_0 (norm e)))
      (Host.gather gather_S100000x128_S1600000x1_S1600000x128_1_0_n_n_0_1_1128 XW (wrap (srcOf e))))

/-- The k-th layer's weights and bias out of the stacked arrays. -/
def W0 (a : (⟨S2x128x128, .f32⟩ : BufTy).Contents (Elt F)) : Wt F :=
  shapeCast _ (extractStridedSlice S1x128x128 ![0, 0, 0] a slices_S2x128x128_S1x128x128_0_0_0) shapeCasts_S1x128x128_S128x128
def W1 (a : (⟨S2x128x128, .f32⟩ : BufTy).Contents (Elt F)) : Wt F :=
  shapeCast _ (extractStridedSlice S1x128x128 ![1, 0, 0] a slices_S2x128x128_S1x128x128_1_0_0) shapeCasts_S1x128x128_S128x128
def b0 (a : (⟨S2x128, .f32⟩ : BufTy).Contents (Elt F)) : Row F :=
  shapeCast _ (extractStridedSlice S1x128 ![0, 0] a slices_S2x128_S1x128_0_0) shapeCasts_S1x128_S128
def b1 (a : (⟨S2x128, .f32⟩ : BufTy).Contents (Elt F)) : Row F :=
  shapeCast _ (extractStridedSlice S1x128 ![1, 0] a slices_S2x128_S1x128_1_0) shapeCasts_S1x128_S128

/-- One layer, from the node array X and its product XW with the layer's weights. -/
def layer (e : Edges F) (X XW : Mat F) (b g beta : Row F) : Mat F := ln (pre (agg e XW) XW (dsq e) b X) g beta

/-- The whole network. -/
def model (a0 : Mat F) (e : Edges F) (a2 : Wt F) (a3 : Row F) (a4 : (⟨S2x128x128, .f32⟩ : BufTy).Contents (Elt F))
    (a5 : (⟨S2x128, .f32⟩ : BufTy).Contents (Elt F)) (a6 a7 : Row F) : Mat F :=
  layer e (layer e (proj a0 a2 a3) (dense (proj a0 a2 a3) (W0 a4)) (b0 a5) a6 a7)
    (dense (layer e (proj a0 a2 a3) (dense (proj a0 a2 a3) (W0 a4)) (b0 a5) a6 a7) (W1 a4)) (b1 a5) a6 a7

end Cert.Gcn

end
-- ==== Proof.RefModel.lean ====
/-
  The reference's result is the network of its arguments: the operations of its one straight line, composed, are the
  network's description read from the inside out — the projection, the two products, the edge aggregation applied twice
  with the same edge scales, and the two normalisations.
-/
import proofs.«129568_j29695403884713_2_alg».proof.Proof.RefRun
import proofs.«129568_j29695403884713_2_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 65536 in
set_option maxHeartbeats 40000000 in
/-- The composed term of the reference's result buffer is the network of the argument arrays. -/
theorem res_eq_model (m : (ℓ : Loc nD τ sig) → Buf (Elt F) ℓ) (c : Dev nD) :
    Cert.ReferenceIdeal.Value.res_main_v149 (F := F) m c
      = Cert.Gcn.model (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v149
  rfl

end Cert.ReferenceIdeal.RefValue

end
-- ==== Proof.SpecK.lean ====
/-
  The edge-dependent parts of the network and the cuts out of the stacked weight and bias arrays, written over the
  kernel program's own shapes and records: per-node 1/sqrt(deg) and 1/deg, the scale of an edge, the rows sent along
  the edges and summed at the targets.  The same functions as in the network's description; there they are written over
  the reference program's shapes and records.
-/
import proofs.«129568_j29695403884713_2_alg».proof.Proof.Gen.KernelIdeal

noncomputable section

namespace Cert.GcnK

open Cert.KernelIdeal Cert.KernelIdeal.Gen Idealize.ShloMosaic

variable {F : FTy → Type} [FloatOps F]

abbrev Mat (F : FTy → Type) := (⟨S100000x128, .f32⟩ : BufTy).Contents (Elt F)
abbrev Wt (F : FTy → Type) := (⟨S128x128, .f32⟩ : BufTy).Contents (Elt F)
abbrev Row (F : FTy → Type) := (⟨S128, .f32⟩ : BufTy).Contents (Elt F)
abbrev NVec (F : FTy → Type) := (⟨S100000, .f32⟩ : BufTy).Contents (Elt F)
abbrev Edges (F : FTy → Type) := (⟨S2x1600000, .i32⟩ : BufTy).Contents (Elt F)
abbrev EIdx (F : FTy → Type) := (⟨S1600000, .i32⟩ : BufTy).Contents (Elt F)

/-- The all-zero node array. -/
def zeroMat : Mat F := broadcastInDim S100000x128 ![] bcast_S_S100000x128 (constant S_ .f32 0x00000000#32)
/-- Row k of the edge list (k = 0 the sources, k = 1 the targets). -/
def srcOf (e : Edges F) : EIdx F :=
  shapeCast _ (extractStridedSlice S1x1600000 ![0, 0] e slices_S2x1600000_S1x1600000_0_0) shapeCasts_S1x1600000_S1600000
def dstOf (e : Edges F) : EIdx F :=
  shapeCast _ (extractStridedSlice S1x1600000 ![1, 0] e slices_S2x1600000_S1x1600000_1_0) shapeCasts_S1x1600000_S1600000
/-- Node numbers made ready for a gather: a negative number counts from the end, and the list becomes a column. -/
def wrap (v : EIdx F) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The targets as a column of scatter indices. -/
def dstCol (e : Edges F) : (⟨S1600000x1, .i32⟩ : BufTy).Contents (Elt F) :=
  broadcastInDim S1600000x1 ![0] bcast_S1600000_S1600000x1_0 (dstOf e)
/-- 1/sqrt(deg) per node, deg = incoming edges + 1. -/
def dinv (e : Edges F) : NVec F :=
  Host.rsqrt (addf (Host.scatterAdd scatter_S100000_S1600000x1_S1600000_n_0_0_1
      (broadcastInDim S100000 ![] bcast_S_S100000 (constant S_ .f32 0x00000000#32)) (dstCol e)
      (broadcastInDim S1600000 ![] bcast_S_S1600000 (constant S_ .f32 0x3F800000#32)))
    (broadcastInDim S100000 ![] bcast_S_S100000 (constant S_ .f32 0x3F800000#32)))
/-- 1/deg per node. -/
def dsq (e : Edges F) : NVec F := mulf (dinv e) (dinv e)
/-- The scale of every edge: 1/sqrt(deg source · deg target). -/
def norm (e : Edges F) : (⟨S1600000, .f32⟩ : BufTy).Contents (Elt F) :=
  mulf (Host.gather gather_S100000_S1600000x1_S1600000_n_0_n_n_0_1_1 (dinv e) (wrap (srcOf e)))
    (Host.gather gather_S100000_S1600000x1_S1600000_n_0_n_n_0_1_1 (dinv e) (wrap (dstOf e)))
/-- The rows of XW sent along the edges, scaled, and summed at the targets. -/
def agg (e : Edges F) (XW : Mat F) : Mat F :=
  Host.scatterAdd scatter_S100000x128_S1600000x1_S1600000x128_1_0_0_1 zeroMat (dstCol e)
    (mulf (broadcastInDim S1600000x128 ![0, 1] bcast_S1600000x1_S1600000x128_0_1
        (broadcastInDim S1600000x1 ![0] bcast_S1600000_S1600000x1_0 (norm e)))
      (Host.gather gather_S100000x128_S1600000x1_S1600000x128_1_0_n_n_0_1_1128 XW (wrap (srcOf e))))

/-- The k-th layer's weights and bias out of the stacked arrays. -/
def W0 (a : (⟨S2x128x128, .f32⟩ : BufTy).Contents (Elt F)) : Wt F :=
  shapeCast _ (extractStridedSlice S1x128x128 ![0, 0, 0] a slices_S2x128x128_S1x128x128_0_0_0) shapeCasts_S1x128x128_S128x128
def W1 (a : (⟨S2x128x128, .f32⟩ : BufTy).Contents (Elt F)) : Wt F :=
  shapeCast _ (extractStridedSlice S1x128x128 ![1, 0, 0] a slices_S2x128x128_S1x128x128_1_0_0) shapeCasts_S1x128x128_S128x128
def b0 (a : (⟨S2x128, .f32⟩ : BufTy).Contents (Elt F)) : Row F :=
  shapeCast _ (extractStridedSlice S1x128 ![0, 0] a slices_S2x128_S1x128_0_0) shapeCasts_S1x128_S128
def b1 (a : (⟨S2x128, .f32⟩ : BufTy).Contents (Elt F)) : Row F :=
  shapeCast _ (extractStridedSlice S1x128 ![1, 0] a slices_S2x128_S1x128_1_0) shapeCasts_S1x128_S128

end Cert.GcnK

end
-- ==== Proof.SpecBridge.lean ====
/-
  The edge-dependent functions written over the kernel program's shapes and records are the ones written over the
  reference program's: the two programs print the same shapes, the same gather and scatter dimension records and the
  same operations under their own names, so each function is equal to its namesake, step by step from the innermost.
-/
import proofs.«129568_j29695403884713_2_alg».proof.Proof.Spec
import proofs.«129568_j29695403884713_2_alg».proof.Proof.SpecK
import Idealize.ShloMosaic.PureOps.Ideal

noncomputable section

namespace Cert.GcnBridge

open Idealize.ShloMosaic

theorem zeroMat_eq : (Cert.GcnK.zeroMat : Cert.GcnK.Mat Ideal) = (Cert.Gcn.zeroMat : Cert.Gcn.Mat Ideal) := rfl
theorem srcOf_eq (e : Cert.Gcn.Edges Ideal) : Cert.GcnK.srcOf e = Cert.Gcn.srcOf e := rfl
theorem dstOf_eq (e : Cert.Gcn.Edges Ideal) : Cert.GcnK.dstOf e = Cert.Gcn.dstOf e := rfl
theorem wrap_eq (v : Cert.Gcn.EIdx Ideal) : Cert.GcnK.wrap v = Cert.Gcn.wrap v := rfl
theorem dstCol_eq (e : Cert.Gcn.Edges Ideal) : Cert.GcnK.dstCol e = Cert.Gcn.dstCol e := rfl

theorem dinv_eq (e : Cert.Gcn.Edges Ideal) : Cert.GcnK.dinv e = Cert.Gcn.dinv e := by
  unfold Cert.GcnK.dinv Cert.Gcn.dinv
  rw [dstCol_eq]
  rfl

theorem dsq_eq (e : Cert.Gcn.Edges Ideal) : Cert.GcnK.dsq e = Cert.Gcn.dsq e := by
  unfold Cert.GcnK.dsq Cert.Gcn.dsq
  rw [dinv_eq]

theorem norm_eq (e : Cert.Gcn.Edges Ideal) : Cert.GcnK.norm e = Cert.Gcn.norm e := by
  unfold Cert.GcnK.norm Cert.Gcn.norm
  rw [dinv_eq, srcOf_eq, dstOf_eq, wrap_eq, wrap_eq]
  try rfl

theorem agg_eq (e : Cert.Gcn.Edges Ideal) (XW : Cert.Gcn.Mat Ideal) : Cert.GcnK.agg e XW = Cert.Gcn.agg e XW := by
  unfold Cert.GcnK.agg Cert.Gcn.agg
  rw [zeroMat_eq, dstCol_eq, norm_eq, srcOf_eq, wrap_eq]
  try rfl

theorem W0_eq (a : (⟨Cert.ReferenceIdeal.S2x128x128, .f32⟩ : BufTy).Contents (Elt Ideal)) : Cert.GcnK.W0 a = Cert.Gcn.W0 a := rfl
theorem W1_eq (a : (⟨Cert.ReferenceIdeal.S2x128x128, .f32⟩ : BufTy).Contents (Elt Ideal)) : Cert.GcnK.W1 a = Cert.Gcn.W1 a := rfl
theorem b0_eq (a : (⟨Cert.ReferenceIdeal.S2x128, .f32⟩ : BufTy).Contents (Elt Ideal)) : Cert.GcnK.b0 a = Cert.Gcn.b0 a := rfl
theorem b1_eq (a : (⟨Cert.ReferenceIdeal.S2x128, .f32⟩ : BufTy).Contents (Elt Ideal)) : Cert.GcnK.b1 a = Cert.Gcn.b1 a := rfl

end Cert.GcnBridge

end
-- ==== Proof.RowSpec.lean ====
/-
  The network's arithmetic on ONE row of 128 features, on the extended reals.

  Everything the dense parts of the network do to a node's row uses that row alone: a product with a weight matrix
  is, at feature q, the sum over k of x k · W k q; the normalisation subtracts the row's mean, divides by the root of
  the mean squared deviation plus eps, scales and shifts feature by feature; the cut at zero is a maximum with 0.
  The constants are kept as the binary words the programs print (128.0, the eps near 1e-5, 0.0).
-/
import Idealize.ShloMosaic.PureOps.Ideal

noncomputable section

open scoped BigOperators

namespace Cert.Gcn.Row

open Idealize.ShloMosaic

/-- Feature q of a row times a weight matrix. -/
def dotRow (x : Fin 128 → EReal) (W : Fin 128 → Fin 128 → EReal) (q : Fin 128) : EReal := ∑ k : Fin 128, x k * W k q

/-- Feature q of max(x·W + b, 0). -/
def projRow (x : Fin 128 → EReal) (W : Fin 128 → Fin 128 → EReal) (b : Fin 128 → EReal) (q : Fin 128) : EReal :=
  max (dotRow x W q + b q) (Ideal.ofBits .f32 0x00000000#32)

/-- Feature q of what a layer normalises: aggregated row + d · own row + bias + input row. -/
def preRow (a xw : Fin 128 → EReal) (d : EReal) (b res : Fin 128 → EReal) (q : Fin 128) : EReal :=
  ((a q + d * xw q) + b q) + res q

/-- The mean of a row: its sum divided by 128. -/
def mean (y : Fin 128 → EReal) : EReal := Ideal.div (∑ k : Fin 128, y k) (Ideal.ofBits .f32 0x43000000#32)

/-- Feature q of the normalised, scaled, shifted row, cut at zero. -/
def lnRow (y g beta : Fin 128 → EReal) (q : Fin 128) : EReal :=
  max ((((y q - mean y) * Ideal.rsqrt (mean (fun k => (y k - mean y) * (y k - mean y)) + Ideal.ofBits .f32 0x3727C5AC#32)) * g q) + beta q)
    (Ideal.ofBits .f32 0x00000000#32)

end Cert.Gcn.Row

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.SpecRead.lean ====
/-
  The whole-array functions of the network read at one entry: entry (r, q) of each depends on row r alone, and is the
  one-row function of that row.
-/
import proofs.«129568_j29695403884713_2_alg».proof.Proof.Spec
import proofs.«129568_j29695403884713_2_alg».proof.Proof.RowSpec
import Idealize.ShloMosaic.Lib.ValueIdx
import Idealize.ShloMosaic.Lib.Pipeline.Value
import Idealize.ShloMosaic.PureOps.Ideal.Laws
import proofs.«129568_j29695403884713_2_alg».proof.Proof.LibHostReads
import proofs.«129568_j29695403884713_2_alg».proof.Proof.LibKeepdims

noncomputable section

open scoped BigOperators

namespace Cert.Gcn

open Cert.ReferenceIdeal Cert.ReferenceIdeal.Gen Idealize.ShloMosaic Idealize.ShloMosaic.ValueIdx

/-- The all-zero node array reads the zero word everywhere. -/
private theorem zeroMat_apply (r : Fin 100000) (q : Fin 128) :
    zeroMat (F := Ideal) (ix2 r q) = Ideal.ofBits .f32 0x00000000#32 := by
  unfold zeroMat
  exact Cert.LibHostReads.splat_apply _ _ _

/-- A feature vector repeated down all rows reads, at (r, q), the vector at q. -/
private theorem rowB_apply (b : Row Ideal) (r : Fin 100000) (q : Fin 128) : rowB b (ix2 r q) = b (ix1 q) := by
  unfold rowB
  exact Cert.LibHostReads.rowBias_apply (by decide) _ _ b r q

/-- A column repeated along the features reads, at (r, q), the column at row r. -/
private theorem spread_apply (c : NCol Ideal) (r : Fin 100000) (q : Fin 128) : spread c (ix2 r q) = c (ix2 r (0 : Fin 1)) := by
  unfold spread
  exact Cert.LibHostReads.colBcast_apply (by decide) _ c r q

/-- A per-node number repeated along the features reads, at (r, q), the number of node r. -/
private theorem colB_apply (d : NVec Ideal) (r : Fin 100000) (q : Fin 128) : colB d (ix2 r q) = d (ix1 r) := by
  unfold colB
  exact (spread_apply _ r q).trans (Cert.LibHostReads.col_apply (by decide) _ d r (0 : Fin 1))

/-- Entry (r, q) of a node array times a weight matrix. -/
theorem dense_apply (X : Mat Ideal) (W : Wt Ideal) (r : Fin 100000) (q : Fin 128) :
    dense X W (ix2 r q) = Row.dotRow (fun k => X (ix2 r k)) (fun k q' => W (ix2 k q')) q := by
  unfold dense Row.dotRow
  exact Cert.LibHostReads.dot_apply _ rfl X W r q

/-- Entry (r, q) of the input projection. -/
theorem proj_apply (X : Mat Ideal) (W : Wt Ideal) (b : Row Ideal) (r : Fin 100000) (q : Fin 128) :
    proj X W b (ix2 r q) = Row.projRow (fun k => X (ix2 r k)) (fun k q' => W (ix2 k q')) (fun q' => b (ix1 q')) q := by
  show max (dense X W (ix2 r q) + rowB b (ix2 r q)) (zeroMat (F := Ideal) (ix2 r q)) = _
  rw [dense_apply, rowB_apply, zeroMat_apply]
  rfl

/-- Entry (r, q) of what a layer normalises. -/
theorem pre_apply (A XW : Mat Ideal) (d : NVec Ideal) (b : Row Ideal) (RES : Mat Ideal) (r : Fin 100000) (q : Fin 128) :
    pre A XW d b RES (ix2 r q)
      = Row.preRow (fun k => A (ix2 r k)) (fun k => XW (ix2 r k)) (d (ix1 r)) (fun k => b (ix1 k)) (fun k => RES (ix2 r k)) q := by
  show ((A (ix2 r q) + colB d (ix2 r q) * XW (ix2 r q)) + rowB b (ix2 r q)) + RES (ix2 r q) = _
  rw [colB_apply, rowB_apply]
  rfl

/-- The host sum of a node array along its features, from the zero word, reads at node r the plain sum of row r. -/
private theorem rowSum_apply (Y : Mat Ideal) (r : Fin 100000) :
    Host.reduceAdd (F := Ideal) Y (constant S_ .f32 0x00000000#32) reducesTo_S100000x128_S100000_d1 h_S_ (ix1 r)
      = ∑ k : Fin 128, Y (ix2 r k) := by
  have hR : S100000x128.Reduces [(1 : Fin 2)] S100000 := by decide
  refine (Ideal.hostReduceAdd_single reducesTo_S100000x128_S100000_d1 hR Y _ (ix1 r)).trans ?_
  show Ideal.ofBits .f32 0x00000000#32 + _ = _
  rw [Ideal.ofBits_zero_f32, zero_add]
  exact Finset.sum_congr rfl fun k _ => congrArg Y (lift_row hR r k)

/-- The mean column reads, at row r, the mean of row r. -/
private theorem meanCol_apply (Y : Mat Ideal) (r : Fin 100000) :
    meanCol Y (ix2 r (0 : Fin 1)) = Row.mean (fun k => Y (ix2 r k)) := by
  unfold meanCol Row.mean
  show Ideal.div _ _ = Ideal.div _ _
  refine congrArg₂ Ideal.div ?_ ?_
  · exact (Cert.LibHostReads.col_apply (by decide) _ _ r (0 : Fin 1)).trans (rowSum_apply Y r)
  · exact Cert.LibHostReads.splat_apply _ _ _

/-- Entry (r, q) of the centred array: the entry minus the mean of its row. -/
private theorem centred_apply (Y : Mat Ideal) (r : Fin 100000) (q : Fin 128) :
    centred Y (ix2 r q) = Y (ix2 r q) - Row.mean (fun k => Y (ix2 r k)) := by
  show Y (ix2 r q) - spread (meanCol Y) (ix2 r q) = _
  rw [spread_apply, meanCol_apply]

/-- The inverse deviation column reads, at row r, 1/sqrt of the mean squared deviation of row r plus eps. -/
private theorem invStd_apply (Y : Mat Ideal) (r : Fin 100000) :
    invStd Y (ix2 r (0 : Fin 1))
      = Ideal.rsqrt (Row.mean (fun k => (Y (ix2 r k) - Row.mean (fun k' => Y (ix2 r k'))) * (Y (ix2 r k) - Row.mean (fun k' => Y (ix2 r k'))))
          + Ideal.ofBits .f32 0x3727C5AC#32) := by
  have hc : (fun k : Fin 128 => mulf (centred Y) (centred Y) (ix2 r k))
      = fun k => (Y (ix2 r k) - Row.mean (fun k' => Y (ix2 r k'))) * (Y (ix2 r k) - Row.mean (fun k' => Y (ix2 r k'))) :=
    funext fun k => by
      show centred Y (ix2 r k) * centred Y (ix2 r k) = _
      rw [centred_apply]
  show Ideal.rsqrt (meanCol (mulf (centred Y) (centred Y)) (ix2 r (0 : Fin 1))
      + broadcastInDim S100000x1 ![] bcast_S_S100000x1 (constant (F := Ideal) S_ .f32 0x3727C5AC#32) (ix2 r (0 : Fin 1))) = _
  rw [meanCol_apply, hc, Cert.LibHostReads.splat_apply]
  rfl

/-- Entry (r, q) of the normalisation. -/
theorem ln_apply (Y : Mat Ideal) (g beta : Row Ideal) (r : Fin 100000) (q : Fin 128) :
    ln Y g beta (ix2 r q) = Row.lnRow (fun k => Y (ix2 r k)) (fun k => g (ix1 k)) (fun k => beta (ix1 k)) q := by
  show max (((centred Y (ix2 r q) * spread (invStd Y) (ix2 r q)) * rowB g (ix2 r q)) + rowB beta (ix2 r q))
      (zeroMat (F := Ideal) (ix2 r q)) = _
  rw [centred_apply, spread_apply, invStd_apply, rowB_apply, rowB_apply, zeroMat_apply]
  rfl

end Cert.Gcn

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.PayDense.lean ====
/-
  The two products the kernels compute on a block of 5000 rows, read at one entry of the block.
-/
import proofs.«129568_j29695403884713_2_alg».proof.Proof.Gen.KernelIdeal.Skeleton
import proofs.«129568_j29695403884713_2_alg».proof.Proof.RowSpec
import Idealize.ShloMosaic.Lib.ValueIdx
import Idealize.ShloMosaic.Lib.ValueLayout
import Idealize.ShloMosaic.Lib.Pipeline.Value
import Idealize.ShloMosaic.PureOps.Ideal.Laws
import proofs.«129568_j29695403884713_2_alg».proof.Proof.LibPlainMatmul

noncomputable section

open scoped BigOperators

namespace Cert.KernelIdeal.Pay

open Cert.KernelIdeal Cert.KernelIdeal.Gen Cert.Gcn Idealize.ShloMosaic Idealize.ShloMosaic.ValueIdx

/-- The block product of the kernels — a 5000×128 block by a 128×128 weight block, accumulated into the zero block — at
    entry (p, q): the sum over the contracted coordinate c of A(p, c) · B(c, q). The kernels' contraction record is the
    plain rows-by-columns one, field by field. -/
private theorem blockProduct_apply (A : FVec Ideal S5000x128 .f32) (B : FVec Ideal S128x128 .f32) (p : Fin 5000) (q : Fin 128) :
    matmul dot_S5000x128_S128x128_S5000x128_1_0_0_1_n_n none A B (constant (F := Ideal) S5000x128 .f32 0x00000000#32) (ix2 p q)
      = ∑ c : Fin 128, A (ix2 p c) * B (ix2 c q) :=
  Cert.LibPlainMatmul.matmul_plain_zero_apply none A B p q

/-- Entry (p, q) of the first kernel's first store: the projection of row p of the block. -/
theorem pay0_1_apply (x0 : Vec Ideal S5000x128 .f32) (x1 : Vec Ideal S128x128 .f32) (x3 : Vec Ideal S1x128 .f32) (p : Fin 5000) (q : Fin 128) :
    k0_pay1 x0 x1 x3 (ix2 p q)
      = Row.projRow (fun k => x0 (ix2 p k)) (fun k q' => x1 (ix2 k q')) (fun q' => x3 (ix2 (0 : Fin 1) q')) q := by
  -- Entry by entry the stored value is max((A·W)(p, q) + bias(0, q), 0): the maximum and the sum read pointwise, the
  -- splat of the zero word reads that word, the block product reads as the sum over the contracted coordinate, the cast
  -- to the same shape is the identity, and the row broadcast over the block reads row 0 of the bias at column q.
  unfold k0_pay1
  rw [maximumf_apply, addf_apply, broadcast_apply, blockProduct_apply, shapeCast_self,
    broadcastTo_1b_ab_apply]
  rfl

/-- Entry (p, q) of the first kernel's second store: row p of its first store times the second weight block. -/
theorem pay0_2_apply (x0 : Vec Ideal S5000x128 .f32) (x1 : Vec Ideal S128x128 .f32) (x3 : Vec Ideal S1x128 .f32) (x10 : Vec Ideal S128x128 .f32)
    (p : Fin 5000) (q : Fin 128) :
    k0_pay2 x0 x1 x3 x10 (ix2 p q) = Row.dotRow (fun k => k0_pay1 x0 x1 x3 (ix2 p k)) (fun k q' => x10 (ix2 k q')) q := by
  -- The weight block passes through a cast to its own shape (the identity); the block product at (p, q) is then the
  -- sum over k of (first store)(p, k) · W(k, q), which is the one-row product of row p of the first store.
  unfold k0_pay2
  rw [shapeCast_self, blockProduct_apply]
  rfl

/-- Entry (p, q) of the second kernel's second store: row p of its first store times the weight block. -/
theorem pay1_2_apply (v37 : FVec Ideal S5000x128 .f32) (v39 : FVec Ideal S1x128 .f32) (v45 : Vec Ideal S128x128 .f32) (p : Fin 5000) (q : Fin 128) :
    k1_pay2 v37 v39 v45 (ix2 p q) = Row.dotRow (fun k => k1_pay1 v37 v39 (ix2 p k)) (fun k q' => v45 (ix2 k q')) q := by
  -- As for the first kernel: an identity cast of the weight block, then the block product read at (p, q) as the sum
  -- over k of (first store)(p, k) · W(k, q).
  unfold k1_pay2
  rw [shapeCast_self, blockProduct_apply]
  rfl

end Cert.KernelIdeal.Pay

end
-- ==== Proof.Region0.lean ====
/-
  The first launch: twenty blocks of 5000 rows.  Block t of each output is written from block t of the node array and
  the whole weight and bias blocks, and row p of block t is row 5000 t + p of the array; so after the launch the first
  output array is the input projection of the whole node array, and the second is its product with the second weights.

  The proof goes entry by entry.  At point t the body stores, at entry (p, q) of its first output block, the one-row
  projection of row p of the node block, and at entry (p, q) of its second, that projected row times the second weight
  matrix at q.  Row p of node block t is row 5000 t + p of the node array, and the weight and bias blocks are their
  whole arrays, so these are entries (5000 t + p, q) of the two whole-array functions, which depend on that row alone.
  Every row r of 100000 lies in block r / 5000, so the twenty write-backs fill both arrays.
-/
import proofs.«129568_j29695403884713_2_alg».proof.Proof.Gen.KernelIdeal.Frame
import proofs.«129568_j29695403884713_2_alg».proof.Proof.Spec
import proofs.«129568_j29695403884713_2_alg».proof.Proof.RowSpec
import proofs.«129568_j29695403884713_2_alg».proof.Proof.SpecRead
import proofs.«129568_j29695403884713_2_alg».proof.Proof.PayDense
import Idealize.ShloMosaic.Lib.ValueIdx
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

/-- The zero offsets of a whole-block rectangle, as the constant function. -/
private theorem hz : (![0, 0] : Fin 2 → Nat) = fun _ => 0 := funext fun a => by fin_cases a <;> rfl

/-- The index maps over the twenty points: the row-blocked windows (the node array and the two outputs) sit at
    block (t, 0) at point t; the weight and bias windows are their whole arrays, at block (0, 0). -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- There are twenty points. -/
private theorem lt_twenty (t : Fin cfg0.N) : t.val < 20 := lt_of_lt_of_eq t.isLt N_0

/-! ## The input blocks, read where they sit in their arrays -/

/-- Row p of block t of the node array is row 5000 t + p of the array. -/
private theorem nodes_read (t : Fin cfg0.N) (p : Fin 5000) (k : Fin 128) (r : Fin 100000) (hr : r.val = t.val * 5000 + p.val) :
    (iblk0 V c 0 t : Vec Ideal S5000x128 .f32) (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The first weight block is the whole first weight array. -/
private theorem wproj_read (t : Fin cfg0.N) (k q : Fin 128) :
    (iblk0 V c 1 t : Vec Ideal S128x128 .f32) (ix2 k q) = V c main_arg2 (ix2 k q) := by
  obtain ⟨-, -, e0, e1, -⟩ := idx_facts t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias block is the whole bias row. -/
private theorem bias_read (t : Fin cfg0.N) (q : Fin 128) :
    (iblk0 V c 2 t : Vec Ideal S1x128 .f32) (ix2 (0 : Fin 1) q) = V c main_v29 (ix2 (0 : Fin 1) q) := by
  obtain ⟨-, -, -, -, e0, e1, -⟩ := idx_facts t
  show V c main_v29 (((cfg0.win 2).blk t).view.emb (ix2 (0 : Fin 1) q)) = V c main_v29 (ix2 (0 : Fin 1) q)
  refine congrArg (V c main_v29) ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- The second weight block is the whole second weight array. -/
private theorem wlayer_read (t : Fin cfg0.N) (k q : Fin 128) :
    (iblk0 V c 3 t : Vec Ideal S128x128 .f32) (ix2 k q) = V c main_v28 (ix2 k q) := by
  obtain ⟨-, -, -, -, -, -, e0, e1, -⟩ := idx_facts t
  show V c main_v28 (((cfg0.win 3).blk t).view.emb (ix2 k q)) = V c main_v28 (ix2 k q)
  refine congrArg (V c main_v28) ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-! ## The two stores at one entry -/

/-- Entry (p, q) of the first store at point t is entry (5000 t + p, q) of the projection of the whole node array:
    both are the one-row projection of row 5000 t + p. -/
private theorem first_store_entry (b : Row Ideal) (hb : ∀ q : Fin 128, V c main_v29 (ix2 (0 : Fin 1) q) = b (ix1 q))
    (t : Fin cfg0.N) (p : Fin 5000) (q : Fin 128) (r : Fin 100000) (hr : r.val = t.val * 5000 + p.val) :
    k0_pay1 (iblk0 V c 0 t) (iblk0 V c 1 t) (iblk0 V c 2 t) (ix2 p q) = proj (V c main_arg0) (V c main_arg2) b (ix2 r q) := by
  refine (Pay.pay0_1_apply (iblk0 V c 0 t) (iblk0 V c 1 t) (iblk0 V c 2 t) p q).trans ?_
  refine Eq.trans ?_ (proj_apply (V c main_arg0) (V c main_arg2) b r q).symm
  have e0 : (fun k => (iblk0 V c 0 t : Vec Ideal S5000x128 .f32) (ix2 p k)) = fun k => V c main_arg0 (ix2 r k) :=
    funext fun k => nodes_read V c t p k r hr
  have e1 : (fun k q' => (iblk0 V c 1 t : Vec Ideal S128x128 .f32) (ix2 k q')) = fun k q' => V c main_arg2 (ix2 k q') :=
    funext fun k => funext fun q' => wproj_read V c t k q'
  have e2 : (fun q' => (iblk0 V c 2 t : Vec Ideal S1x128 .f32) (ix2 (0 : Fin 1) q')) = fun q' => b (ix1 q') :=
    funext fun q' => (bias_read V c t q').trans (hb q')
  exact congrFun (congr (congr (congrArg Row.projRow e0) e1) e2) q

/-- Entry (p, q) of the second store at point t is entry (5000 t + p, q) of the projection times the second weights:
    both are row 5000 t + p of the projection times that matrix. -/
private theorem second_store_entry (b : Row Ideal) (hb : ∀ q : Fin 128, V c main_v29 (ix2 (0 : Fin 1) q) = b (ix1 q))
    (t : Fin cfg0.N) (p : Fin 5000) (q : Fin 128) (r : Fin 100000) (hr : r.val = t.val * 5000 + p.val) :
    k0_pay2 (iblk0 V c 0 t) (iblk0 V c 1 t) (iblk0 V c 2 t) (iblk0 V c 3 t) (ix2 p q)
      = dense (proj (V c main_arg0) (V c main_arg2) b) (V c main_v28) (ix2 r q) := by
  refine (Pay.pay0_2_apply (iblk0 V c 0 t) (iblk0 V c 1 t) (iblk0 V c 2 t) (iblk0 V c 3 t) p q).trans ?_
  refine Eq.trans ?_ (dense_apply (proj (V c main_arg0) (V c main_arg2) b) (V c main_v28) r q).symm
  have e0 : (fun k => k0_pay1 (iblk0 V c 0 t) (iblk0 V c 1 t) (iblk0 V c 2 t) (ix2 p k))
      = fun k => proj (V c main_arg0) (V c main_arg2) b (ix2 r k) :=
    funext fun k => first_store_entry V c b hb t p k r hr
  have e1 : (fun k q' => (iblk0 V c 3 t : Vec Ideal S128x128 .f32) (ix2 k q')) = fun k q' => V c main_v28 (ix2 k q') :=
    funext fun k => funext fun q' => wlayer_read V c t k q'
  exact congrFun (congr (congrArg Row.dotRow e0) e1) q

/-! ## What a point writes back -/

/-- Point t writes back, into block t of the first output, block t of the projection of the whole node array. -/
private theorem first_flushed (b : Row Ideal) (hb : ∀ q : Fin 128, V c main_v29 (ix2 (0 : Fin 1) q) = b (ix1 q)) (t : Fin cfg0.N) :
    (dat0 (F := Ideal) V c).flushed 4 t
      = ((cfg0.win 4).blk t).view.read (Elt Ideal) (proj (V c main_arg0) (V c main_arg2) b) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨-, -, -, -, -, -, -, -, e0, e1, -⟩ := idx_facts t
  have ht : t.val < 20 := lt_twenty t
  funext j
  obtain ⟨p, q, rfl⟩ : ∃ (p : Fin 5000) (q : Fin 128), j = ix2 p q := ⟨j 0, j 1, eq_ix2 j⟩
  have hemb : ((cfg0.win 4).blk t).view.emb (ix2 p q) = ix2 (⟨t.val * 5000 + p.val, by omega⟩ : Fin 100000) q := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  show k0_pay1 (iblk0 V c 0 t) (iblk0 V c 1 t) (iblk0 V c 2 t) (ix2 p q)
    = proj (V c main_arg0) (V c main_arg2) b (((cfg0.win 4).blk t).view.emb (ix2 p q))
  refine Eq.trans ?_ (congrArg (proj (V c main_arg0) (V c main_arg2) b) hemb).symm
  exact first_store_entry V c b hb t p q _ rfl

/-- Point t writes back, into block t of the second output, block t of the projection times the second weights. -/
private theorem second_flushed (b : Row Ideal) (hb : ∀ q : Fin 128, V c main_v29 (ix2 (0 : Fin 1) q) = b (ix1 q)) (t : Fin cfg0.N) :
    (dat0 (F := Ideal) V c).flushed 5 t
      = ((cfg0.win 5).blk t).view.read (Elt Ideal) (dense (proj (V c main_arg0) (V c main_arg2) b) (V c main_v28)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  have ht : t.val < 20 := lt_twenty t
  funext j
  obtain ⟨p, q, rfl⟩ : ∃ (p : Fin 5000) (q : Fin 128), j = ix2 p q := ⟨j 0, j 1, eq_ix2 j⟩
  have hemb : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay2 (iblk0 V c 0 t) (iblk0 V c 1 t) (iblk0 V c 2 t) (iblk0 V c 3 t) (ix2 p q)
    = dense (proj (V c main_arg0) (V c main_arg2) b) (V c main_v28) (((cfg0.win 5).blk t).view.emb (ix2 p q))
  refine Eq.trans ?_ (congrArg (dense (proj (V c main_arg0) (V c main_arg2) b) (V c main_v28)) hemb).symm
  exact second_store_entry V c b hb t p q _ rfl

/-! ## The twenty blocks fill each output array -/

/-- An entry of the first output array is in point t's block iff each coordinate is in the block's range on its axis. -/
private theorem first_mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v30_0).slice (win0_4.rect t)).set ↔ _
  rw [View.set_slice_whole, Rect.mem_set_unit]
  exact Iff.rfl

/-- The same for the second output array. -/
private theorem second_mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30_1).slice (win0_5.rect t)).set ↔ _
  rw [View.set_slice_whole, Rect.mem_set_unit]
  exact Iff.rfl

/-- Row r of the first output array lies in the block of point r / 5000. -/
private theorem first_cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e0, e1, -⟩ := idx_facts t
  refine ⟨t, flush0_4 t, ?_⟩
  rw [first_mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- Row r of the second output array lies in the block of point r / 5000. -/
private theorem second_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [second_mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The two output arrays after the launch -/

/-- After the first launch its first output array is the input projection of the arrays it was entered with. -/
theorem region0_x (b : Row Ideal) (hb : ∀ q : Fin 128, V c main_v29 (ix2 (0 : Fin 1) q) = b (ix1 q)) :
    (dat0 (F := Ideal) V c).arrAt 4 cfg0.N = proj (V c main_arg0) (V c main_arg2) b :=
  (dat0 (F := Ideal) V c).arrAt_eq_of_cover 4 (proj (V c main_arg0) (V c main_arg2) b)
    (fun t _ => first_flushed V c b hb t) (fun i => first_cover i)

/-- After the first launch its second output array is the projection times the layer-0 weights. -/
theorem region0_xw (b : Row Ideal) (hb : ∀ q : Fin 128, V c main_v29 (ix2 (0 : Fin 1) q) = b (ix1 q)) :
    (dat0 (F := Ideal) V c).arrAt 5 cfg0.N = dense (proj (V c main_arg0) (V c main_arg2) b) (V c main_v28) :=
  (dat0 (F := Ideal) V c).arrAt_eq_of_cover 5 (dense (proj (V c main_arg0) (V c main_arg2) b) (V c main_v28))
    (fun t _ => second_flushed V c b hb t) (fun i => second_cover i)

end Cert.KernelIdeal.Regions

end
-- ==== Proof.PayLn.lean ====
/-
  The normalisation the second and third kernels compute on a block of 5000 rows, read at one entry of the block.

  On a 5000×128 block y the kernels take the lane sum of each row, keep it as a column, divide it by 128 (the column of
  row means), subtract that column from y, take the same mean of the squared differences, add eps, take the reciprocal
  square root, multiply by it, scale by a row g, shift by a row b and cut at zero.  Every step reads, at entry (p, q),
  entries of row p only: a column broadcast reads the column at (p, 0), a row broadcast reads the row at (0, q), the lane
  sum at p is the sum over k of the entries (p, k).  So entry (p, q) of the result is the one-row function `lnRow` of row
  p of y; and y itself — aggregated block + degree column · own block + bias row + input block — is at (p, k) the one-row
  function `preRow` of the rows p of its operands.
-/
import proofs.«129568_j29695403884713_2_alg».proof.Proof.Gen.KernelIdeal.Skeleton
import proofs.«129568_j29695403884713_2_alg».proof.Proof.RowSpec
import proofs.«129568_j29695403884713_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Gcn Idealize.ShloMosaic Idealize.ShloMosaic.ValueIdx

/-- A pointwise reciprocal square root reads the scalar one. -/
private theorem rsqrt_apply {s : Shape} {φ : FTy} (a : FVec Ideal s φ) (i : s.Idx) : rsqrt a i = Ideal.rsqrt (a i) := rfl

section Block

variable (h : S5000x128.Reduces [1] S5000) (hφ : FTy.f32 = FTy.f32 ∨ FTy.f32 = FTy.bf16)
  (hacc : (0x00000000#32 : BitVec 32) = 0x00000000#32) (hc : S5000.ShapeCasts S5000x1)
  (hb : S5000x1.Broadcasts S5000x128) (hr : S1x128.Broadcasts S5000x128)

/-- The lane sum of a 5000×128 block at row p is the sum of that row. -/
private theorem rowsum_apply (y : FVec Ideal S5000x128 .f32) (p : Fin 5000) :
    multiReduction .add [1] S5000 y 0x00000000#32 h hφ hacc (ix1 p) = ∑ k : Fin 128, y (ix2 p k) :=
  multiReduction_add_row y 0x00000000#32 h hφ hacc p

/-- The lane sum kept as a column and divided by 128: at (p, u) it is the mean of row p. -/
private theorem meancol_apply (y : FVec Ideal S5000x128 .f32) (p : Fin 5000) (u : Fin 1) :
    divf (shapeCast S5000x1 (multiReduction .add [1] S5000 y 0x00000000#32 h hφ hacc) hc)
        (broadcast S5000x1 (Ideal.ofBits .f32 0x43000000#32)) (ix2 p u)
      = Row.mean (fun k => y (ix2 p k)) := by
  rw [divf_apply, shapeCast_a_a1_apply, rowsum_apply, broadcast_apply]
  rfl

/-- The block minus its column of row means: at (p, k) it is y(p, k) minus the mean of row p. -/
private theorem centred_apply (y : FVec Ideal S5000x128 .f32) (p : Fin 5000) (k : Fin 128) :
    subf y (broadcastTo S5000x128
        (divf (shapeCast S5000x1 (multiReduction .add [1] S5000 y 0x00000000#32 h hφ hacc) hc)
          (broadcast S5000x1 (Ideal.ofBits .f32 0x43000000#32))) hb) (ix2 p k)
      = y (ix2 p k) - Row.mean (fun k => y (ix2 p k)) := by
  rw [subf_apply, broadcastTo_a1_ab_apply, meancol_apply]

/-- Row p of the block of squared centred entries is k ↦ (y(p,k) − mean)². -/
private theorem sqcentred_row (y : FVec Ideal S5000x128 .f32) (p : Fin 5000) :
    (fun k : Fin 128 =>
        mulf
          (subf y (broadcastTo S5000x128
            (divf (shapeCast S5000x1 (multiReduction .add [1] S5000 y 0x00000000#32 h hφ hacc) hc)
              (broadcast S5000x1 (Ideal.ofBits .f32 0x43000000#32))) hb))
          (subf y (broadcastTo S5000x128
            (divf (shapeCast S5000x1 (multiReduction .add [1] S5000 y 0x00000000#32 h hφ hacc) hc)
              (broadcast S5000x1 (Ideal.ofBits .f32 0x43000000#32))) hb)) (ix2 p k))
      = fun k => (y (ix2 p k) - Row.mean (fun k => y (ix2 p k))) * (y (ix2 p k) - Row.mean (fun k => y (ix2 p k))) :=
  funext fun k => by rw [mulf_apply, centred_apply]

/-- The normalisation of a block y with scale row g and shift row b, cut at zero: entry (p, q) is the row function
    `lnRow` of row p of y.  The mean of squares is the mean (same lemma) of the block of squared centred entries, whose
    row p is k ↦ (y(p,k) − mean)². -/
private theorem ln_apply (y : FVec Ideal S5000x128 .f32) (g b : FVec Ideal S1x128 .f32) (p : Fin 5000) (q : Fin 128) :
    maximumf
        (addf
          (mulf
            (mulf
              (subf y (broadcastTo S5000x128
                (divf (shapeCast S5000x1 (multiReduction .add [1] S5000 y 0x00000000#32 h hφ hacc) hc)
                  (broadcast S5000x1 (Ideal.ofBits .f32 0x43000000#32))) hb))
              (broadcastTo S5000x128
                (rsqrt
                  (addf
                    (divf
                      (shapeCast S5000x1
                        (multiReduction .add [1] S5000
                          (mulf
                            (subf y (broadcastTo S5000x128
                              (divf (shapeCast S5000x1 (multiReduction .add [1] S5000 y 0x00000000#32 h hφ hacc) hc)
                                (broadcast S5000x1 (Ideal.ofBits .f32 0x43000000#32))) hb))
                            (subf y (broadcastTo S5000x128
                              (divf (shapeCast S5000x1 (multiReduction .add [1] S5000 y 0x00000000#32 h hφ hacc) hc)
                                (broadcast S5000x1 (Ideal.ofBits .f32 0x43000000#32))) hb)))
                          0x00000000#32 h hφ hacc) hc)
                      (broadcast S5000x1 (Ideal.ofBits .f32 0x43000000#32)))
                    (broadcast S5000x1 (Ideal.ofBits .f32 0x3727C5AC#32)))) hb))
            (broadcastTo S5000x128 g hr))
          (broadcastTo S5000x128 b hr))
        (broadcast S5000x128 (Ideal.ofBits .f32 0x00000000#32)) (ix2 p q)
      = Row.lnRow (fun k => y (ix2 p k)) (fun k => g (ix2 (0 : Fin 1) k)) (fun k => b (ix2 (0 : Fin 1) k)) q := by
  rw [maximumf_apply, addf_apply, mulf_apply, mulf_apply, centred_apply, broadcastTo_a1_ab_apply, rsqrt_apply, addf_apply,
    meancol_apply, sqcentred_row, broadcast_apply, broadcast_apply, broadcastTo_1b_ab_apply, broadcastTo_1b_ab_apply]
  rfl

/-- What the layer normalises, on blocks: aggregated block + degree column · own block + bias row + input block; entry
    (p, k) is the row function `preRow` of the rows p. -/
private theorem pre_apply (a xw : FVec Ideal S5000x128 .f32) (d : FVec Ideal S5000x1 .f32) (bias : FVec Ideal S1x128 .f32)
    (res : FVec Ideal S5000x128 .f32) (p : Fin 5000) (k : Fin 128) :
    addf (addf (addf a (mulf (broadcastTo S5000x128 d hb) xw)) (broadcastTo S5000x128 bias hr)) res (ix2 p k)
      = Row.preRow (fun k => a (ix2 p k)) (fun k => xw (ix2 p k)) (d (ix2 p (0 : Fin 1))) (fun k => bias (ix2 (0 : Fin 1) k))
          (fun k => res (ix2 p k)) k := by
  rw [addf_apply, addf_apply, addf_apply, mulf_apply, broadcastTo_a1_ab_apply, broadcastTo_1b_ab_apply]
  rfl

end Block

/-- Entry (p, q) of the second kernel's first store: the layer's row function of row p of the blocks. -/
theorem pay_ln1 (v0 v2 : Vec Ideal S5000x128 .f32) (v4 : Vec Ideal S5000x1 .f32) (v9 : Vec Ideal S1x128 .f32) (v13 : Vec Ideal S5000x128 .f32)
    (v34 v38 : Vec Ideal S1x128 .f32) (p : Fin 5000) (q : Fin 128) :
    k1_pay1 (k1_pay3 v0 v2 v4 v9 v13 v34) (k1_pay4 v38) (ix2 p q)
      = Row.lnRow (Row.preRow (fun k => v0 (ix2 p k)) (fun k => v2 (ix2 p k)) (v4 (ix2 p (0 : Fin 1))) (fun k => v9 (ix2 (0 : Fin 1) k)) (fun k => v13 (ix2 p k)))
          (fun k => v34 (ix2 (0 : Fin 1) k)) (fun k => v38 (ix2 (0 : Fin 1) k)) q := by
  unfold k1_pay1 k1_pay3 k1_pay4
  dsimp only
  simp only [shapeCast_self]
  refine (ln_apply _ _ _ _ _ _ _ _ _ p q).trans ?_
  exact congrArg (fun y => Row.lnRow y _ _ q) (funext fun k => pre_apply _ _ _ _ _ _ _ p k)

/-- The same for the third kernel's store. -/
theorem pay_ln2 (v0 v2 : Vec Ideal S5000x128 .f32) (v4 : Vec Ideal S5000x1 .f32) (v9 : Vec Ideal S1x128 .f32) (v13 : Vec Ideal S5000x128 .f32)
    (v34 v38 : Vec Ideal S1x128 .f32) (p : Fin 5000) (q : Fin 128) :
    k2_pay1 (k2_pay2 v0 v2 v4 v9 v13 v34) (k2_pay3 v38) (ix2 p q)
      = Row.lnRow (Row.preRow (fun k => v0 (ix2 p k)) (fun k => v2 (ix2 p k)) (v4 (ix2 p (0 : Fin 1))) (fun k => v9 (ix2 (0 : Fin 1) k)) (fun k => v13 (ix2 p k)))
          (fun k => v34 (ix2 (0 : Fin 1) k)) (fun k => v38 (ix2 (0 : Fin 1) k)) q := by
  unfold k2_pay1 k2_pay2 k2_pay3
  dsimp only
  simp only [shapeCast_self]
  refine (ln_apply _ _ _ _ _ _ _ _ _ p q).trans ?_
  exact congrArg (fun y => Row.lnRow y _ _ q) (funext fun k => pre_apply _ _ _ _ _ _ _ p k)

end Cert.KernelIdeal.Pay

end
-- ==== Proof.Region1.lean ====
/-
  The second launch: twenty blocks of 5000 rows.  Block t of each output is written from block t of the aggregated
  rows, of the products, of the per-node scale (a column) and of the layer's input, and the whole bias, scale, shift and
  weight blocks; row p of block t is row 5000 t + p of the arrays.  So after the launch the first output array is the
  layer's normalised output on the whole arrays, and the second its product with the next layer's weights.
-/
import proofs.«129568_j29695403884713_2_alg».proof.Proof.Gen.KernelIdeal.Frame
import proofs.«129568_j29695403884713_2_alg».proof.Proof.Spec
import proofs.«129568_j29695403884713_2_alg».proof.Proof.RowSpec
import proofs.«129568_j29695403884713_2_alg».proof.Proof.SpecRead
import proofs.«129568_j29695403884713_2_alg».proof.Proof.PayDense
import proofs.«129568_j29695403884713_2_alg».proof.Proof.PayLn
import Idealize.ShloMosaic.Lib.ValueIdx
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

/-- The zero offsets of a whole-block access, as the constant function. -/
private theorem zero_off : (![0, 0] : Fin 2 → Nat) = fun _ => 0 :=
  funext fun a => by match a with | ⟨0, _⟩ => rfl | ⟨1, _⟩ => rfl

/-- The block indices of the second launch's windows at grid point t: the row-blocked windows take block (t, 0), the
    whole-array windows block (0, 0). -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-! ## The input blocks as rows of the arrays

An element of a block sits in its array, on each axis, at the block's index times the block's size plus its own
coordinate.  So entry (p, k) of block t of a row-blocked window is entry (5000 t + p, k) of the array, and a
whole-array window's only block is the array. -/

/-- Row p of block t of the aggregated rows is row 5000 t + p of the array. -/
private theorem read_blk0 (t : Fin cfg1.N) (p : Fin 5000) (k : Fin 128) (r : Fin 100000) (hr : r.val = t.val * 5000 + p.val) :
    (iblk1 V c 0 t : Vec Ideal S5000x128 .f32) (ix2 p k) = V c main_v43 (ix2 r k) := by
  obtain ⟨e0, e1, -⟩ := block_index t
  show V c main_v43 (((cfg1.win 0).blk t).view.emb (ix2 p k)) = V c main_v43 (ix2 r k)
  refine congrArg (V c main_v43) ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row p of block t of the products is row 5000 t + p of the array. -/
private theorem read_blk1 (t : Fin cfg1.N) (p : Fin 5000) (k : Fin 128) (r : Fin 100000) (hr : r.val = t.val * 5000 + p.val) :
    (iblk1 V c 1 t : Vec Ideal S5000x128 .f32) (ix2 p k) = V c main_v30_1 (ix2 r k) := by
  obtain ⟨-, -, e0, e1, -⟩ := block_index t
  show V c main_v30_1 (((cfg1.win 1).blk t).view.emb (ix2 p k)) = V c main_v30_1 (ix2 r k)
  refine congrArg (V c main_v30_1) ?_
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- Entry p of block t of the per-node column is entry 5000 t + p of the column. -/
private theorem read_blk2 (t : Fin cfg1.N) (p : Fin 5000) (r : Fin 100000) (hr : r.val = t.val * 5000 + p.val) :
    (iblk1 V c 2 t : Vec Ideal S5000x1 .f32) (ix2 p (0 : Fin 1)) = V c main_v48 (ix2 r (0 : Fin 1)) := by
  obtain ⟨-, -, -, -, e0, e1, -⟩ := block_index t
  show V c main_v48 (((cfg1.win 2).blk t).view.emb (ix2 p (0 : Fin 1))) = V c main_v48 (ix2 r (0 : Fin 1))
  refine congrArg (V c main_v48) ?_
  funext a; apply Fin.ext
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega

/-- The bias block is the bias array. -/
private theorem read_blk3 (t : Fin cfg1.N) (k : Fin 128) :
    (iblk1 V c 3 t : Vec Ideal S1x128 .f32) (ix2 (0 : Fin 1) k) = V c main_v49 (ix2 (0 : Fin 1) k) := by
  obtain ⟨-, -, -, -, -, -, e0, e1, -⟩ := block_index t
  show V c main_v49 (((cfg1.win 3).blk t).view.emb (ix2 (0 : Fin 1) k)) = V c main_v49 (ix2 (0 : Fin 1) k)
  refine congrArg (V c main_v49) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 128 + 1 * k.val = k.val; omega

/-- Row p of block t of the layer's input is row 5000 t + p of the array. -/
private theorem read_blk4 (t : Fin cfg1.N) (p : Fin 5000) (k : Fin 128) (r : Fin 100000) (hr : r.val = t.val * 5000 + p.val) :
    (iblk1 V c 4 t : Vec Ideal S5000x128 .f32) (ix2 p k) = V c main_v30_0 (ix2 r k) := by
  obtain ⟨-, -, -, -, -, -, -, -, e0, e1, -⟩ := block_index t
  show V c main_v30_0 (((cfg1.win 4).blk t).view.emb (ix2 p k)) = V c main_v30_0 (ix2 r k)
  refine congrArg (V c main_v30_0) ?_
  funext a; apply Fin.ext
  match a with
  | ⟨0, _⟩ => show win1_4.index t (0 : Fin 2) * 5000 + 1 * p.val = r.val; omega
  | ⟨1, _⟩ => show win1_4.index t (1 : Fin 2) * 128 + 1 * k.val = k.val; omega

/-- The scale block is the scale array. -/
private theorem read_blk5 (t : Fin cfg1.N) (k : Fin 128) :
    (iblk1 V c 5 t : Vec Ideal S1x128 .f32) (ix2 (0 : Fin 1) k) = V c main_v50 (ix2 (0 : Fin 1) k) := by
  obtain ⟨-, -, -, -, -, -, -, -, -, -, e0, e1, -⟩ := block_index t
  show V c main_v50 (((cfg1.win 5).blk t).view.emb (ix2 (0 : Fin 1) k)) = V c main_v50 (ix2 (0 : Fin 1) k)
  refine congrArg (V c main_v50) ?_
  funext a; apply Fin.ext
  match a with
  | ⟨0, _⟩ => show win1_5.index t (0 : Fin 2) * 1 + 1 * (0 : Fin 1).val = (0 : Fin 1).val; omega
  | ⟨1, _⟩ => show win1_5.index t (1 : Fin 2) * 128 + 1 * k.val = k.val; omega

/-- The shift block is the shift array. -/
private theorem read_blk6 (t : Fin cfg1.N) (k : Fin 128) :
    (iblk1 V c 6 t : Vec Ideal S1x128 .f32) (ix2 (0 : Fin 1) k) = V c main_v51 (ix2 (0 : Fin 1) k) := by
  obtain ⟨-, -, -, -, -, -, -, -, -, -, -, -, e0, e1, -⟩ := block_index t
  show V c main_v51 (((cfg1.win 6).blk t).view.emb (ix2 (0 : Fin 1) k)) = V c main_v51 (ix2 (0 : Fin 1) k)
  refine congrArg (V c main_v51) ?_
  funext a; apply Fin.ext
  match a with
  | ⟨0, _⟩ => show win1_6.index t (0 : Fin 2) * 1 + 1 * (0 : Fin 1).val = (0 : Fin 1).val; omega
  | ⟨1, _⟩ => show win1_6.index t (1 : Fin 2) * 128 + 1 * k.val = k.val; omega

/-- The weight block is the weight array. -/
private theorem read_blk7 (t : Fin cfg1.N) (k q : Fin 128) :
    (iblk1 V c 7 t : Vec Ideal S128x128 .f32) (ix2 k q) = V c main_v47 (ix2 k q) := by
  obtain ⟨-, -, -, -, -, -, -, -, -, -, -, -, -, -, e0, e1, -⟩ := block_index t
  show V c main_v47 (((cfg1.win 7).blk t).view.emb (ix2 k q)) = V c main_v47 (ix2 k q)
  refine congrArg (V c main_v47) ?_
  funext a; apply Fin.ext
  match a with
  | ⟨0, _⟩ => show win1_7.index t (0 : Fin 2) * 128 + 1 * k.val = k.val; omega
  | ⟨1, _⟩ => show win1_7.index t (1 : Fin 2) * 128 + 1 * q.val = q.val; omega

/-- Entry (p, q) of block t of the first output sits at (5000 t + p, q) of its array. -/
private theorem emb_blk8 (t : Fin cfg1.N) (p : Fin 5000) (q : Fin 128) (r : Fin 100000) (hr : r.val = t.val * 5000 + p.val) :
    ((cfg1.win 8).blk t).view.emb (ix2 p q) = ix2 r q := by
  obtain ⟨-, -, -, -, -, -, -, -, -, -, -, -, -, -, -, -, e0, e1, -⟩ := block_index t
  funext a; apply Fin.ext
  match a with
  | ⟨0, _⟩ => show win1_8.index t (0 : Fin 2) * 5000 + 1 * p.val = r.val; omega
  | ⟨1, _⟩ => show win1_8.index t (1 : Fin 2) * 128 + 1 * q.val = q.val; omega

/-- Entry (p, q) of block t of the second output sits at (5000 t + p, q) of its array. -/
private theorem emb_blk9 (t : Fin cfg1.N) (p : Fin 5000) (q : Fin 128) (r : Fin 100000) (hr : r.val = t.val * 5000 + p.val) :
    ((cfg1.win 9).blk t).view.emb (ix2 p q) = ix2 r q := by
  obtain ⟨-, -, -, -, -, -, -, -, -, -, -, -, -, -, -, -, -, -, e0, e1⟩ := block_index t
  funext a; apply Fin.ext
  match a with
  | ⟨0, _⟩ => show win1_9.index t (0 : Fin 2) * 5000 + 1 * p.val = r.val; omega
  | ⟨1, _⟩ => show win1_9.index t (1 : Fin 2) * 128 + 1 * q.val = q.val; omega

/-! ## One entry of the two stores

Entry (p, q) of a store depends on row p of the row-blocked input blocks and on the whole small blocks.  When row p
of the blocks is row r of the arrays, it is entry (r, q) of the whole-array function: both are the same one-row
function of the same row. -/

/-- Entry (p, q) of the first store is entry (r, q) of the layer's normalised output on the arrays. -/
private theorem store1_entry (x0 x1 : Vec Ideal S5000x128 .f32) (x2 : Vec Ideal S5000x1 .f32) (x3 : Vec Ideal S1x128 .f32)
    (x4 : Vec Ideal S5000x128 .f32) (x5 x6 : Vec Ideal S1x128 .f32)
    (A XW RES : Mat Ideal) (d : NVec Ideal) (b g beta : Row Ideal) (r : Fin 100000) (p : Fin 5000) (q : Fin 128)
    (h0 : ∀ k : Fin 128, x0 (ix2 p k) = A (ix2 r k)) (h1 : ∀ k : Fin 128, x1 (ix2 p k) = XW (ix2 r k))
    (h2 : x2 (ix2 p (0 : Fin 1)) = d (ix1 r)) (h3 : ∀ k : Fin 128, x3 (ix2 (0 : Fin 1) k) = b (ix1 k))
    (h4 : ∀ k : Fin 128, x4 (ix2 p k) = RES (ix2 r k)) (h5 : ∀ k : Fin 128, x5 (ix2 (0 : Fin 1) k) = g (ix1 k))
    (h6 : ∀ k : Fin 128, x6 (ix2 (0 : Fin 1) k) = beta (ix1 k)) :
    k1_pay1 (k1_pay3 x0 x1 x2 x3 x4 x5) (k1_pay4 x6) (ix2 p q) = ln (pre A XW d b RES) g beta (ix2 r q) := by
  refine (Pay.pay_ln1 x0 x1 x2 x3 x4 x5 x6 p q).trans ?_
  refine Eq.trans ?_ (ln_apply (pre A XW d b RES) g beta r q).symm
  have hpre : (fun k : Fin 128 => pre A XW d b RES (ix2 r k))
      = Row.preRow (fun k => A (ix2 r k)) (fun k => XW (ix2 r k)) (d (ix1 r)) (fun k => b (ix1 k)) (fun k => RES (ix2 r k)) :=
    funext fun k => pre_apply A XW d b RES r k
  have e0 : (fun k : Fin 128 => x0 (ix2 p k)) = fun k => A (ix2 r k) := funext h0
  have e1 : (fun k : Fin 128 => x1 (ix2 p k)) = fun k => XW (ix2 r k) := funext h1
  have e3 : (fun k : Fin 128 => x3 (ix2 (0 : Fin 1) k)) = fun k => b (ix1 k) := funext h3
  have e4 : (fun k : Fin 128 => x4 (ix2 p k)) = fun k => RES (ix2 r k) := funext h4
  have e5 : (fun k : Fin 128 => x5 (ix2 (0 : Fin 1) k)) = fun k => g (ix1 k) := funext h5
  have e6 : (fun k : Fin 128 => x6 (ix2 (0 : Fin 1) k)) = fun k => beta (ix1 k) := funext h6
  rw [hpre, e0, e1, h2, e3, e4, e5, e6]

/-- Entry (p, q) of the second store is entry (r, q) of that output times the weights. -/
private theorem store2_entry (x0 x1 : Vec Ideal S5000x128 .f32) (x2 : Vec Ideal S5000x1 .f32) (x3 : Vec Ideal S1x128 .f32)
    (x4 : Vec Ideal S5000x128 .f32) (x5 x6 : Vec Ideal S1x128 .f32) (x7 : Vec Ideal S128x128 .f32)
    (A XW RES : Mat Ideal) (d : NVec Ideal) (b g beta : Row Ideal) (W : Wt Ideal) (r : Fin 100000) (p : Fin 5000) (q : Fin 128)
    (h0 : ∀ k : Fin 128, x0 (ix2 p k) = A (ix2 r k)) (h1 : ∀ k : Fin 128, x1 (ix2 p k) = XW (ix2 r k))
    (h2 : x2 (ix2 p (0 : Fin 1)) = d (ix1 r)) (h3 : ∀ k : Fin 128, x3 (ix2 (0 : Fin 1) k) = b (ix1 k))
    (h4 : ∀ k : Fin 128, x4 (ix2 p k) = RES (ix2 r k)) (h5 : ∀ k : Fin 128, x5 (ix2 (0 : Fin 1) k) = g (ix1 k))
    (h6 : ∀ k : Fin 128, x6 (ix2 (0 : Fin 1) k) = beta (ix1 k)) (h7 : ∀ k q' : Fin 128, x7 (ix2 k q') = W (ix2 k q')) :
    k1_pay2 (k1_pay3 x0 x1 x2 x3 x4 x5) (k1_pay4 x6) x7 (ix2 p q) = dense (ln (pre A XW d b RES) g beta) W (ix2 r q) := by
  refine (Pay.pay1_2_apply (k1_pay3 x0 x1 x2 x3 x4 x5) (k1_pay4 x6) x7 p q).trans ?_
  refine Eq.trans ?_ (dense_apply (ln (pre A XW d b RES) g beta) W r q).symm
  have e1 : (fun k : Fin 128 => k1_pay1 (k1_pay3 x0 x1 x2 x3 x4 x5) (k1_pay4 x6) (ix2 p k))
      = fun k => ln (pre A XW d b RES) g beta (ix2 r k) :=
    funext fun k => store1_entry x0 x1 x2 x3 x4 x5 x6 A XW RES d b g beta r p k h0 h1 h2 h3 h4 h5 h6
  have e2 : (fun k q' : Fin 128 => x7 (ix2 k q')) = fun k q' => W (ix2 k q') := funext fun k => funext fun q' => h7 k q'
  rw [e1, e2]

/-! ## What a grid point writes back -/

/-- Point t writes back block t of the layer's normalised output on the whole arrays. -/
private theorem flushed8 (d : NVec Ideal) (b g beta : Row Ideal)
    (hd : ∀ r : Fin 100000, V c main_v48 (ix2 r (0 : Fin 1)) = d (ix1 r))
    (hb : ∀ q : Fin 128, V c main_v49 (ix2 (0 : Fin 1) q) = b (ix1 q))
    (hg : ∀ q : Fin 128, V c main_v50 (ix2 (0 : Fin 1) q) = g (ix1 q))
    (hbeta : ∀ q : Fin 128, V c main_v51 (ix2 (0 : Fin 1) q) = beta (ix1 q)) (t : Fin cfg1.N) :
    (dat1 (F := Ideal) V c).flushed 8 t
      = ((cfg1.win 8).blk t).view.read (Elt Ideal) (ln (pre (V c main_v43) (V c main_v30_1) d b (V c main_v30_0)) g beta) := by
  show (cfg1.win 8).cut (grid1.coords t) ((dat1 V c).after 8 t) = _
  rw [after1_8]
  unfold out1_8
  rw [View.canon_unit_zero zero_off]
  simp only [View.ld_unit_zero (S := S5000x128) zero_off, View.ld_unit_zero (S := S5000x1) zero_off,
    View.ld_unit_zero (S := S1x128) zero_off]
  funext j
  obtain ⟨p, q, rfl⟩ : ∃ (p : Fin 5000) (q : Fin 128), j = ix2 p q := ⟨j 0, j 1, eq_ix2 (n0 := 5000) (n1 := 128) j⟩
  have hN : cfg1.N = 20 := N_1
  have hr : t.val * 5000 + p.val < 100000 := by have := t.isLt; have := p.isLt; omega
  show k1_pay1 (k1_pay3 (iblk1 V c 0 t) (iblk1 V c 1 t) (iblk1 V c 2 t) (iblk1 V c 3 t) (iblk1 V c 4 t) (iblk1 V c 5 t))
        (k1_pay4 (iblk1 V c 6 t)) (ix2 p q)
      = ln (pre (V c main_v43) (V c main_v30_1) d b (V c main_v30_0)) g beta (((cfg1.win 8).blk t).view.emb (ix2 p q))
  refine Eq.trans ?_ (congrArg (ln (pre (V c main_v43) (V c main_v30_1) d b (V c main_v30_0)) g beta)
    (emb_blk8 t p q ⟨t.val * 5000 + p.val, hr⟩ rfl).symm)
  exact store1_entry (iblk1 V c 0 t) (iblk1 V c 1 t) (iblk1 V c 2 t) (iblk1 V c 3 t) (iblk1 V c 4 t) (iblk1 V c 5 t) (iblk1 V c 6 t)
    (V c main_v43) (V c main_v30_1) (V c main_v30_0) d b g beta ⟨t.val * 5000 + p.val, hr⟩ p q
    (fun k => read_blk0 V c t p k ⟨t.val * 5000 + p.val, hr⟩ rfl)
    (fun k => read_blk1 V c t p k ⟨t.val * 5000 + p.val, hr⟩ rfl)
    ((read_blk2 V c t p ⟨t.val * 5000 + p.val, hr⟩ rfl).trans (hd ⟨t.val * 5000 + p.val, hr⟩))
    (fun k => (read_blk3 V c t k).trans (hb k))
    (fun k => read_blk4 V c t p k ⟨t.val * 5000 + p.val, hr⟩ rfl)
    (fun k => (read_blk5 V c t k).trans (hg k))
    (fun k => (read_blk6 V c t k).trans (hbeta k))

/-- Point t writes back block t of that output times the weights. -/
private theorem flushed9 (d : NVec Ideal) (b g beta : Row Ideal)
    (hd : ∀ r : Fin 100000, V c main_v48 (ix2 r (0 : Fin 1)) = d (ix1 r))
    (hb : ∀ q : Fin 128, V c main_v49 (ix2 (0 : Fin 1) q) = b (ix1 q))
    (hg : ∀ q : Fin 128, V c main_v50 (ix2 (0 : Fin 1) q) = g (ix1 q))
    (hbeta : ∀ q : Fin 128, V c main_v51 (ix2 (0 : Fin 1) q) = beta (ix1 q)) (t : Fin cfg1.N) :
    (dat1 (F := Ideal) V c).flushed 9 t
      = ((cfg1.win 9).blk t).view.read (Elt Ideal)
          (dense (ln (pre (V c main_v43) (V c main_v30_1) d b (V c main_v30_0)) g beta) (V c main_v47)) := by
  show (cfg1.win 9).cut (grid1.coords t) ((dat1 V c).after 9 t) = _
  rw [after1_9]
  unfold out1_9
  rw [View.canon_unit_zero zero_off]
  simp only [View.ld_unit_zero (S := S5000x128) zero_off, View.ld_unit_zero (S := S5000x1) zero_off,
    View.ld_unit_zero (S := S1x128) zero_off, View.ld_unit_zero (S := S128x128) zero_off]
  funext j
  obtain ⟨p, q, rfl⟩ : ∃ (p : Fin 5000) (q : Fin 128), j = ix2 p q := ⟨j 0, j 1, eq_ix2 (n0 := 5000) (n1 := 128) j⟩
  have hN : cfg1.N = 20 := N_1
  have hr : t.val * 5000 + p.val < 100000 := by have := t.isLt; have := p.isLt; omega
  show k1_pay2 (k1_pay3 (iblk1 V c 0 t) (iblk1 V c 1 t) (iblk1 V c 2 t) (iblk1 V c 3 t) (iblk1 V c 4 t) (iblk1 V c 5 t))
        (k1_pay4 (iblk1 V c 6 t)) (iblk1 V c 7 t) (ix2 p q)
      = dense (ln (pre (V c main_v43) (V c main_v30_1) d b (V c main_v30_0)) g beta) (V c main_v47)
          (((cfg1.win 9).blk t).view.emb (ix2 p q))
  refine Eq.trans ?_ (congrArg (dense (ln (pre (V c main_v43) (V c main_v30_1) d b (V c main_v30_0)) g beta) (V c main_v47))
    (emb_blk9 t p q ⟨t.val * 5000 + p.val, hr⟩ rfl).symm)
  exact store2_entry (iblk1 V c 0 t) (iblk1 V c 1 t) (iblk1 V c 2 t) (iblk1 V c 3 t) (iblk1 V c 4 t) (iblk1 V c 5 t) (iblk1 V c 6 t)
    (iblk1 V c 7 t) (V c main_v43) (V c main_v30_1) (V c main_v30_0) d b g beta (V c main_v47) ⟨t.val * 5000 + p.val, hr⟩ p q
    (fun k => read_blk0 V c t p k ⟨t.val * 5000 + p.val, hr⟩ rfl)
    (fun k => read_blk1 V c t p k ⟨t.val * 5000 + p.val, hr⟩ rfl)
    ((read_blk2 V c t p ⟨t.val * 5000 + p.val, hr⟩ rfl).trans (hd ⟨t.val * 5000 + p.val, hr⟩))
    (fun k => (read_blk3 V c t k).trans (hb k))
    (fun k => read_blk4 V c t p k ⟨t.val * 5000 + p.val, hr⟩ rfl)
    (fun k => (read_blk5 V c t k).trans (hg k))
    (fun k => (read_blk6 V c t k).trans (hbeta k))
    (fun k q' => read_blk7 V c t k q')

/-! ## The blocks cover the arrays

Row i of 100000 lies in block i / 5000: the blocks are rows 5000 t … 5000 t + 4999, all 128 columns. -/

/-- An index is in point t's block of the first output iff each coordinate is in the block's range on its axis. -/
private theorem mem_blk8 (t : Fin cfg1.N) (i : S100000x128.Idx) :
    i ∈ ((cfg1.win 8).blk t).view.set
      ↔ ∀ a : Fin 2, win1_8.index t a * S5000x128.size a ≤ (i a).val ∧ (i a).val < win1_8.index t a * S5000x128.size a + S5000x128.size a := by
  show i ∈ ((View.whole main_v52_0).slice (win1_8.rect t)).set ↔ _
  rw [View.set_slice_whole, Rect.mem_set_unit]
  exact Iff.rfl

/-- The same for the second output. -/
private theorem mem_blk9 (t : Fin cfg1.N) (i : S100000x128.Idx) :
    i ∈ ((cfg1.win 9).blk t).view.set
      ↔ ∀ a : Fin 2, win1_9.index t a * S5000x128.size a ≤ (i a).val ∧ (i a).val < win1_9.index t a * S5000x128.size a + S5000x128.size a := by
  show i ∈ ((View.whole main_v52_1).slice (win1_9.rect t)).set ↔ _
  rw [View.set_slice_whole, Rect.mem_set_unit]
  exact Iff.rfl

/-- Every entry of the first output array is in the block some point writes back. -/
private theorem cover8 (i : S100000x128.Idx) :
    ∃ t : Fin cfg1.N, (cfg1.win 8).flush t = true ∧ i ∈ ((cfg1.win 8).blk t).view.set := by
  have hN : cfg1.N = 20 := N_1
  have hi0 : (i 0).val < 100000 := (i 0).isLt
  have hi1 : (i 1).val < 128 := (i 1).isLt
  have ht : (i 0).val / 5000 < cfg1.N := by omega
  obtain ⟨-, -, -, -, -, -, -, -, -, -, -, -, -, -, -, -, e0, e1, -⟩ := block_index ⟨(i 0).val / 5000, ht⟩
  have e0' : win1_8.index ⟨(i 0).val / 5000, ht⟩ (0 : Fin 2) = (i 0).val / 5000 := e0
  refine ⟨⟨(i 0).val / 5000, ht⟩, flush1_8 _, ?_⟩
  rw [mem_blk8]
  intro a
  match a with
  | ⟨0, _⟩ =>
    show win1_8.index ⟨(i 0).val / 5000, ht⟩ (0 : Fin 2) * 5000 ≤ (i 0).val
      ∧ (i 0).val < win1_8.index ⟨(i 0).val / 5000, ht⟩ (0 : Fin 2) * 5000 + 5000
    omega
  | ⟨1, _⟩ =>
    show win1_8.index ⟨(i 0).val / 5000, ht⟩ (1 : Fin 2) * 128 ≤ (i 1).val
      ∧ (i 1).val < win1_8.index ⟨(i 0).val / 5000, ht⟩ (1 : Fin 2) * 128 + 128
    omega

/-- Every entry of the second output array is in the block some point writes back. -/
private theorem cover9 (i : S100000x128.Idx) :
    ∃ t : Fin cfg1.N, (cfg1.win 9).flush t = true ∧ i ∈ ((cfg1.win 9).blk t).view.set := by
  have hN : cfg1.N = 20 := N_1
  have hi0 : (i 0).val < 100000 := (i 0).isLt
  have hi1 : (i 1).val < 128 := (i 1).isLt
  have ht : (i 0).val / 5000 < cfg1.N := by omega
  obtain ⟨-, -, -, -, -, -, -, -, -, -, -, -, -, -, -, -, -, -, e0, e1⟩ := block_index ⟨(i 0).val / 5000, ht⟩
  have e0' : win1_9.index ⟨(i 0).val / 5000, ht⟩ (0 : Fin 2) = (i 0).val / 5000 := e0
  refine ⟨⟨(i 0).val / 5000, ht⟩, flush1_9 _, ?_⟩
  rw [mem_blk9]
  intro a
  match a with
  | ⟨0, _⟩ =>
    show win1_9.index ⟨(i 0).val / 5000, ht⟩ (0 : Fin 2) * 5000 ≤ (i 0).val
      ∧ (i 0).val < win1_9.index ⟨(i 0).val / 5000, ht⟩ (0 : Fin 2) * 5000 + 5000
    omega
  | ⟨1, _⟩ =>
    show win1_9.index ⟨(i 0).val / 5000, ht⟩ (1 : Fin 2) * 128 ≤ (i 1).val
      ∧ (i 1).val < win1_9.index ⟨(i 0).val / 5000, ht⟩ (1 : Fin 2) * 128 + 128
    omega

/-! ## The arrays after the launch -/

/-- After the second launch its first output array is the layer function of the arrays it was entered with. -/
theorem region1_x (d : NVec Ideal) (b g beta : Row Ideal)
    (hd : ∀ r : Fin 100000, V c main_v48 (ix2 r (0 : Fin 1)) = d (ix1 r))
    (hb : ∀ q : Fin 128, V c main_v49 (ix2 (0 : Fin 1) q) = b (ix1 q))
    (hg : ∀ q : Fin 128, V c main_v50 (ix2 (0 : Fin 1) q) = g (ix1 q))
    (hbeta : ∀ q : Fin 128, V c main_v51 (ix2 (0 : Fin 1) q) = beta (ix1 q)) :
    (dat1 (F := Ideal) V c).arrAt 8 cfg1.N = ln (pre (V c main_v43) (V c main_v30_1) d b (V c main_v30_0)) g beta :=
  (dat1 (F := Ideal) V c).arrAt_eq_of_cover 8 (ln (pre (V c main_v43) (V c main_v30_1) d b (V c main_v30_0)) g beta)
    (fun t _ => flushed8 V c d b g beta hd hb hg hbeta t) cover8

/-- After the second launch its second output array is that times the layer-1 weights. -/
theorem region1_xw (d : NVec Ideal) (b g beta : Row Ideal)
    (hd : ∀ r : Fin 100000, V c main_v48 (ix2 r (0 : Fin 1)) = d (ix1 r))
    (hb : ∀ q : Fin 128, V c main_v49 (ix2 (0 : Fin 1) q) = b (ix1 q))
    (hg : ∀ q : Fin 128, V c main_v50 (ix2 (0 : Fin 1) q) = g (ix1 q))
    (hbeta : ∀ q : Fin 128, V c main_v51 (ix2 (0 : Fin 1) q) = beta (ix1 q)) :
    (dat1 (F := Ideal) V c).arrAt 9 cfg1.N
      = dense (ln (pre (V c main_v43) (V c main_v30_1) d b (V c main_v30_0)) g beta) (V c main_v47) :=
  (dat1 (F := Ideal) V c).arrAt_eq_of_cover 9
    (dense (ln (pre (V c main_v43) (V c main_v30_1) d b (V c main_v30_0)) g beta) (V c main_v47))
    (fun t _ => flushed9 V c d b g beta hd hb hg hbeta t) cover9

end Cert.KernelIdeal.Regions

end
-- ==== Proof.Region2.lean ====
/-
  The third launch: twenty blocks of 5000 rows, as the second launch without the product.  After it the output array
  is the layer's normalised output on the whole arrays it was entered with.

  Point t of the twenty works on rows 5000·t … 5000·t + 4999.  Of the three node arrays (the aggregated rows, the
  node's own product rows, the layer's input rows) and of the per-node column it is handed exactly those rows; the
  bias, the scale and the shift are handed whole.  Entry (p, q) of what it writes is the one-row layer function
  (add the four contributions, subtract the row's mean, divide by the root of the mean squared deviation plus eps,
  scale, shift, cut at zero) of row p of its blocks, and the whole-array layer function at entry (r, q) is the same
  one-row function of row r of the arrays; with r = 5000·t + p the rows agree entry by entry, so point t writes rows
  5000·t … 5000·t + 4999 of the layer function of the arrays.  Every row r lies in the block of point r / 5000, so after
  the twenty points the whole output array is that function.
-/
import proofs.«129568_j29695403884713_2_alg».proof.Proof.Gen.KernelIdeal.Frame
import proofs.«129568_j29695403884713_2_alg».proof.Proof.Spec
import proofs.«129568_j29695403884713_2_alg».proof.Proof.RowSpec
import proofs.«129568_j29695403884713_2_alg».proof.Proof.SpecRead
import proofs.«129568_j29695403884713_2_alg».proof.Proof.PayDense
import proofs.«129568_j29695403884713_2_alg».proof.Proof.PayLn
import Idealize.ShloMosaic.Lib.ValueIdx
import Idealize.ShloMosaic.Lib.Pipeline.Value

set_option maxRecDepth 16384

noncomputable section

open scoped BigOperators

namespace Cert.KernelIdeal.Regions

open Cert.KernelIdeal Cert.KernelIdeal.Gen Cert.Gcn Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

/-- The offsets (0, 0) are zero on both axes. -/
private theorem zero_offsets : (![0, 0] : Fin 2 → Nat) = fun _ => 0 := funext fun a => by fin_cases a <;> rfl

/-- The block indices at the twenty points: the three node arrays and the per-node column move down the rows with the
    output (same row-block index, column-block index 0); the bias, the scale and the shift stay at block (0, 0); the
    output's row-block index is at most 19 and its column-block index is 0. -/
private theorem block_index_facts : ∀ t : Fin cfg2.N,
      win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = win2_7.index t (0 : Fin 2) ∧ win2_2.index t (1 : Fin 2) = 0
    ∧ win2_3.index t (0 : Fin 2) = 0 ∧ win2_3.index t (1 : Fin 2) = 0
    ∧ win2_4.index t (0 : Fin 2) = win2_7.index t (0 : Fin 2) ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 19 ∧ win2_7.index t (1 : Fin 2) = 0 :=
  (by decide +kernel : ∀ t : Fin grid2.N, _)

/-- Each of the twenty row blocks of the output is some point's. -/
private theorem block_index_onto : ∀ q0 : Fin 20, ∃ t : Fin cfg2.N, win2_7.index t (0 : Fin 2) = q0.val :=
  (by decide +kernel : ∀ q0 : Fin 20, ∃ t : Fin grid2.N, win2_7.index t (0 : Fin 2) = q0.val)

/-! ## What a point is handed: rows of the arrays

A block's entry sits in its array, on each axis, at block index × block size + its coordinate inside the block.  With r the
output block's first row plus p, row p of a row-blocked input is row r of its array, and an input handed whole is
read where it is. -/

/-- Row p of the block of aggregated rows at point t is row r of the array. -/
private theorem agg_block_row (t : Fin cfg2.N) (p : Fin 5000) (k : Fin 128) (r : Fin 100000)
    (hr : r.val = win2_7.index t (0 : Fin 2) * 5000 + p.val) :
    iblk2 V c 0 t (ix2 p k) = V c main_v65 (ix2 r k) := by
  obtain ⟨e00, e01, e10, e11, e20, e21, e30, e31, e40, e41, e50, e51, e60, e61, e70, e71⟩ := block_index_facts t
  show V c main_v65 (((cfg2.win 0).blk t).view.emb (ix2 p k)) = V c main_v65 (ix2 r k)
  refine congrArg _ ?_
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- Row p of the block of the nodes' own product rows at point t is row r of the array. -/
private theorem own_block_row (t : Fin cfg2.N) (p : Fin 5000) (k : Fin 128) (r : Fin 100000)
    (hr : r.val = win2_7.index t (0 : Fin 2) * 5000 + p.val) :
    iblk2 V c 1 t (ix2 p k) = V c main_v52_1 (ix2 r k) := by
  obtain ⟨e00, e01, e10, e11, e20, e21, e30, e31, e40, e41, e50, e51, e60, e61, e70, e71⟩ := block_index_facts t
  show V c main_v52_1 (((cfg2.win 1).blk t).view.emb (ix2 p k)) = V c main_v52_1 (ix2 r k)
  refine congrArg _ ?_
  funext a; apply Fin.ext
  match a with
  | ⟨0, _⟩ => show win2_1.index t (0 : Fin 2) * 5000 + 1 * p.val = r.val; omega
  | ⟨1, _⟩ => show win2_1.index t (1 : Fin 2) * 128 + 1 * k.val = k.val; omega

/-- Entry p of the block of the per-node column at point t is entry r of the column. -/
private theorem col_block_entry (t : Fin cfg2.N) (p : Fin 5000) (r : Fin 100000)
    (hr : r.val = win2_7.index t (0 : Fin 2) * 5000 + p.val) :
    iblk2 V c 2 t (ix2 p (0 : Fin 1)) = V c main_v68 (ix2 r (0 : Fin 1)) := by
  obtain ⟨e00, e01, e10, e11, e20, e21, e30, e31, e40, e41, e50, e51, e60, e61, e70, e71⟩ := block_index_facts t
  show V c main_v68 (((cfg2.win 2).blk t).view.emb (ix2 p (0 : Fin 1))) = V c main_v68 (ix2 r (0 : Fin 1))
  refine congrArg _ ?_
  funext a; apply Fin.ext
  match a with
  | ⟨0, _⟩ => show win2_2.index t (0 : Fin 2) * 5000 + 1 * p.val = r.val; omega
  | ⟨1, _⟩ => show win2_2.index t (1 : Fin 2) * 1 + 1 * 0 = 0; omega

/-- The bias is handed whole at every point. -/
private theorem bias_block (t : Fin cfg2.N) (k : Fin 128) :
    iblk2 V c 3 t (ix2 (0 : Fin 1) k) = V c main_v69 (ix2 (0 : Fin 1) k) := by
  obtain ⟨e00, e01, e10, e11, e20, e21, e30, e31, e40, e41, e50, e51, e60, e61, e70, e71⟩ := block_index_facts t
  show V c main_v69 (((cfg2.win 3).blk t).view.emb (ix2 (0 : Fin 1) k)) = V c main_v69 (ix2 (0 : Fin 1) k)
  refine congrArg _ ?_
  funext a; apply Fin.ext
  match a with
  | ⟨0, _⟩ => show win2_3.index t (0 : Fin 2) * 1 + 1 * 0 = 0; omega
  | ⟨1, _⟩ => show win2_3.index t (1 : Fin 2) * 128 + 1 * k.val = k.val; omega

/-- Row p of the block of the layer's input rows at point t is row r of the array. -/
private theorem input_block_row (t : Fin cfg2.N) (p : Fin 5000) (k : Fin 128) (r : Fin 100000)
    (hr : r.val = win2_7.index t (0 : Fin 2) * 5000 + p.val) :
    iblk2 V c 4 t (ix2 p k) = V c main_v52_0 (ix2 r k) := by
  obtain ⟨e00, e01, e10, e11, e20, e21, e30, e31, e40, e41, e50, e51, e60, e61, e70, e71⟩ := block_index_facts t
  show V c main_v52_0 (((cfg2.win 4).blk t).view.emb (ix2 p k)) = V c main_v52_0 (ix2 r k)
  refine congrArg _ ?_
  funext a; apply Fin.ext
  match a with
  | ⟨0, _⟩ => show win2_4.index t (0 : Fin 2) * 5000 + 1 * p.val = r.val; omega
  | ⟨1, _⟩ => show win2_4.index t (1 : Fin 2) * 128 + 1 * k.val = k.val; omega

/-- The scale is handed whole at every point. -/
private theorem scale_block (t : Fin cfg2.N) (k : Fin 128) :
    iblk2 V c 5 t (ix2 (0 : Fin 1) k) = V c main_v70 (ix2 (0 : Fin 1) k) := by
  obtain ⟨e00, e01, e10, e11, e20, e21, e30, e31, e40, e41, e50, e51, e60, e61, e70, e71⟩ := block_index_facts t
  show V c main_v70 (((cfg2.win 5).blk t).view.emb (ix2 (0 : Fin 1) k)) = V c main_v70 (ix2 (0 : Fin 1) k)
  refine congrArg _ ?_
  funext a; apply Fin.ext
  match a with
  | ⟨0, _⟩ => show win2_5.index t (0 : Fin 2) * 1 + 1 * 0 = 0; omega
  | ⟨1, _⟩ => show win2_5.index t (1 : Fin 2) * 128 + 1 * k.val = k.val; omega

/-- The shift is handed whole at every point. -/
private theorem shift_block (t : Fin cfg2.N) (k : Fin 128) :
    iblk2 V c 6 t (ix2 (0 : Fin 1) k) = V c main_v71 (ix2 (0 : Fin 1) k) := by
  obtain ⟨e00, e01, e10, e11, e20, e21, e30, e31, e40, e41, e50, e51, e60, e61, e70, e71⟩ := block_index_facts t
  show V c main_v71 (((cfg2.win 6).blk t).view.emb (ix2 (0 : Fin 1) k)) = V c main_v71 (ix2 (0 : Fin 1) k)
  refine congrArg _ ?_
  funext a; apply Fin.ext
  match a with
  | ⟨0, _⟩ => show win2_6.index t (0 : Fin 2) * 1 + 1 * 0 = 0; omega
  | ⟨1, _⟩ => show win2_6.index t (1 : Fin 2) * 128 + 1 * k.val = k.val; omega

/-- Entry (p, q) of the output's block at point t is entry (r, q) of the output array, r the block's first row plus p. -/
private theorem out_block_entry (t : Fin cfg2.N) (p : Fin 5000) (q : Fin 128) (r : Fin 100000)
    (hr : r.val = win2_7.index t (0 : Fin 2) * 5000 + p.val) :
    ((cfg2.win 7).blk t).view.emb (ix2 p q) = (ix2 r q : S100000x128.Idx) := by
  obtain ⟨e00, e01, e10, e11, e20, e21, e30, e31, e40, e41, e50, e51, e60, e61, e70, e71⟩ := block_index_facts t
  funext a; apply Fin.ext
  match a with
  | ⟨0, _⟩ => show win2_7.index t (0 : Fin 2) * 5000 + 1 * p.val = r.val; omega
  | ⟨1, _⟩ => show win2_7.index t (1 : Fin 2) * 128 + 1 * q.val = q.val; omega

/-! ## What a point writes -/

/-- The one-row layer function depends on its seven arguments entry by entry. -/
private theorem lnRow_preRow_congr {a a' xw xw' b b' res res' g g' beta beta' : Fin 128 → EReal} {s s' : EReal}
    (ha : ∀ k, a k = a' k) (hxw : ∀ k, xw k = xw' k) (hs : s = s') (hb : ∀ k, b k = b' k) (hres : ∀ k, res k = res' k)
    (hg : ∀ k, g k = g' k) (hbeta : ∀ k, beta k = beta' k) (q : Fin 128) :
    Row.lnRow (Row.preRow a xw s b res) g beta q = Row.lnRow (Row.preRow a' xw' s' b' res') g' beta' q := by
  obtain rfl : a = a' := funext ha
  obtain rfl : xw = xw' := funext hxw
  obtain rfl : b = b' := funext hb
  obtain rfl : res = res' := funext hres
  obtain rfl : g = g' := funext hg
  obtain rfl : beta = beta' := funext hbeta
  subst hs
  rfl

/-- Point t writes back its block of the layer function of the arrays: entry (p, q) of what the body stores is the
    one-row function of row p of the blocks, the layer function at entry (r, q) is the one-row function of row r of
    the arrays, and with r the block's first row plus p the two rows agree entry by entry. -/
private theorem block_written (d : NVec Ideal) (b g beta : Row Ideal)
    (hd : ∀ r : Fin 100000, V c main_v68 (ix2 r (0 : Fin 1)) = d (ix1 r))
    (hb : ∀ q : Fin 128, V c main_v69 (ix2 (0 : Fin 1) q) = b (ix1 q))
    (hg : ∀ q : Fin 128, V c main_v70 (ix2 (0 : Fin 1) q) = g (ix1 q))
    (hbeta : ∀ q : Fin 128, V c main_v71 (ix2 (0 : Fin 1) q) = beta (ix1 q)) (t : Fin cfg2.N) :
    (dat2 (F := Ideal) V c).flushed 7 t
      = ((cfg2.win 7).blk t).view.read (Elt Ideal) (ln (pre (V c main_v65) (V c main_v52_1) d b (V c main_v52_0)) g beta) := by
  show (cfg2.win 7).cut (grid2.coords t) ((dat2 (F := Ideal) V c).after 7 t) = _
  rw [after2_7]
  unfold out2_7
  rw [View.canon_unit_zero zero_offsets]
  simp only [View.ld_unit_zero (S := S5000x128) zero_offsets, View.ld_unit_zero (S := S5000x1) zero_offsets,
    View.ld_unit_zero (S := S1x128) zero_offsets]
  funext j
  obtain ⟨p, q, rfl⟩ : ∃ (p : Fin 5000) (q : Fin 128), j = ix2 p q := ⟨j 0, j 1, eq_ix2 j⟩
  have hrow : win2_7.index t (0 : Fin 2) * 5000 + p.val < 100000 := by
    have h := (block_index_facts t).2.2.2.2.2.2.2.2.2.2.2.2.2.2.1
    have hp : p.val < 5000 := p.isLt
    omega
  show k2_pay1 (k2_pay2 (iblk2 V c 0 t) (iblk2 V c 1 t) (iblk2 V c 2 t) (iblk2 V c 3 t) (iblk2 V c 4 t) (iblk2 V c 5 t))
      (k2_pay3 (iblk2 V c 6 t)) (ix2 p q)
    = ln (pre (V c main_v65) (V c main_v52_1) d b (V c main_v52_0)) g beta (((cfg2.win 7).blk t).view.emb (ix2 p q))
  rw [out_block_entry t p q ⟨win2_7.index t (0 : Fin 2) * 5000 + p.val, hrow⟩ rfl]
  generalize hr : (⟨win2_7.index t (0 : Fin 2) * 5000 + p.val, hrow⟩ : Fin 100000) = r
  have hrv : r.val = win2_7.index t (0 : Fin 2) * 5000 + p.val := by rw [← hr]
  -- the left side: the one-row function of row p of the blocks
  refine (Pay.pay_ln2 (iblk2 V c 0 t) (iblk2 V c 1 t) (iblk2 V c 2 t) (iblk2 V c 3 t) (iblk2 V c 4 t) (iblk2 V c 5 t)
    (iblk2 V c 6 t) p q).trans ?_
  -- the right side: the one-row function of row r of what the layer normalises
  refine Eq.trans ?_ (ln_apply (pre (V c main_v65) (V c main_v52_1) d b (V c main_v52_0)) g beta r q).symm
  -- row p of the blocks is row r of the arrays; the column, the bias, the scale and the shift are the given vectors
  refine Eq.trans (lnRow_preRow_congr (fun k => agg_block_row V c t p k r hrv) (fun k => own_block_row V c t p k r hrv)
    ((col_block_entry V c t p r hrv).trans (hd r)) (fun k => (bias_block V c t k).trans (hb k))
    (fun k => input_block_row V c t p k r hrv) (fun k => (scale_block V c t k).trans (hg k))
    (fun k => (shift_block V c t k).trans (hbeta k)) q) ?_
  -- and row r of what the layer normalises is the sum of the four contributions of row r
  refine congrArg (fun y => Row.lnRow y (fun k => g (ix1 k)) (fun k => beta (ix1 k)) q) ?_
  exact (funext fun k => pre_apply (V c main_v65) (V c main_v52_1) d b (V c main_v52_0) r k).symm

/-! ## The twenty blocks fill the output array -/

/-- An entry of the output array lies in the block of point t exactly when, on each axis, its coordinate lies in the
    block's range. -/
private theorem mem_out_block (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v72).slice (win2_7.rect t)).set ↔ _
  rw [View.set_slice_whole, Rect.mem_set_unit]
  exact Iff.rfl

/-- Row r of the output array lies in the block whose index is r / 5000. -/
private theorem rows_covered (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ := block_index_onto ⟨(i 0).val / 5000, by omega⟩
  have q0 : win2_7.index t (0 : Fin 2) = (i 0).val / 5000 := ht
  have q1 : win2_7.index t (1 : Fin 2) = 0 := (block_index_facts t).2.2.2.2.2.2.2.2.2.2.2.2.2.2.2
  refine ⟨t, flush2_7 t, ?_⟩
  rw [mem_out_block]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- After the third launch its output array is the layer function of the arrays it was entered with. -/
theorem region2_x (d : NVec Ideal) (b g beta : Row Ideal)
    (hd : ∀ r : Fin 100000, V c main_v68 (ix2 r (0 : Fin 1)) = d (ix1 r))
    (hb : ∀ q : Fin 128, V c main_v69 (ix2 (0 : Fin 1) q) = b (ix1 q))
    (hg : ∀ q : Fin 128, V c main_v70 (ix2 (0 : Fin 1) q) = g (ix1 q))
    (hbeta : ∀ q : Fin 128, V c main_v71 (ix2 (0 : Fin 1) q) = beta (ix1 q)) :
    (dat2 (F := Ideal) V c).arrAt 7 cfg2.N = ln (pre (V c main_v65) (V c main_v52_1) d b (V c main_v52_0)) g beta :=
  (dat2 (F := Ideal) V c).arrAt_eq_of_cover 7 (ln (pre (V c main_v65) (V c main_v52_1) d b (V c main_v52_0)) g beta)
    (fun t _ => block_written V c d b g beta hd hb hg hbeta t) rows_covered

end Cert.KernelIdeal.Regions

end
-- ==== Proof.LibColCast.lean ====
/-
  A vector made a column, two ways.

  A vector of length a can be turned into an a×1 column by reshaping it or by broadcasting it along the rows of a
  one-column matrix. Entry (r, 0) of either column is entry r of the vector, so the two columns are one array.
-/
import Idealize.ShloMosaic.Lib.ValueIdx
import Idealize.ShloMosaic.Lib.ValueLayout
import Idealize.ShloMosaic.Lib.Pipeline.Value

noncomputable section

namespace Cert.LibColCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector broadcast along the rows of a one-column matrix reads, at `(i, u)`, the vector at `i`. -/
theorem bcastCol_apply {a : ℕ} (ha : a ≠ 1) (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by show i.val = if a = 1 then 0 else i.val; rw [if_neg ha])

/-- The reshaped column and the broadcast column are the same array. -/
theorem castCol_eq {a : ℕ} (ha : a ≠ 1) (x : (⟨1, ![a]⟩ : Shape).Idx → α) (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [shapeCast_a_a1_apply, bcastCol_apply ha]

end Cert.LibColCast

end
-- ==== Proof.HostWalk.lean ====
/-
  What each launch finds in the arrays it reads.  Between the launches the program applies array operations to the
  buffers; a buffer no operation and no launch writes keeps its contents.  Read back to the arguments, the arrays the
  launches are entered with are: the arguments themselves, a bias as one row, a layer's weights and bias cut out of the
  stacked arrays, the per-node scale 1/deg as a column, and the rows aggregated along the edges from the previous launch's
  product array.
-/
import proofs.«129568_j29695403884713_2_alg».proof.Proof.Gen.KernelIdeal.Frame
import proofs.«129568_j29695403884713_2_alg».proof.Proof.SpecK
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run
import proofs.«129568_j29695403884713_2_alg».proof.Proof.LibColCast

noncomputable section

open scoped BigOperators

namespace Cert.KernelIdeal.Walk

open Cert.KernelIdeal Cert.KernelIdeal.Gen Cert.GcnK Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The buffers a stretch of operations writes; every other buffer keeps its contents -/

/-- The buffers the operations before the first launch write: the values %0 … %29 and the constants they use. -/
private def written0 : List (Ref sig .tc) :=
  [main_v0, main_v1, main_v2, main_v3, main_cst, main_v4, main_cst_0, main_v5, main_v6, main_v7, main_cst_1, main_v8,
   main_v9, main_v10, main_v11, main_c, main_v12, main_v13, main_c_2, main_v14, main_v15, main_v16, main_v17, main_v18,
   main_c_3, main_v19, main_v20, main_c_4, main_v21, main_v22, main_v23, main_v24, main_v25, main_v26, main_v27,
   main_v28, main_v29]

/-- The buffers the operations between the first and the second launch write: the values %31 … %51 and their constants. -/
private def written1 : List (Ref sig .tc) :=
  [main_v31, main_c_5, main_v32, main_v33, main_c_6, main_v34, main_v35, main_v36, main_v37, main_v38, main_v39,
   main_v40, main_cst_7, main_v41, main_v42, main_v43, main_v44, main_v45, main_v46, main_v47, main_v48, main_v49,
   main_v50, main_v51]

private theorem writes0 : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

private theorem writes1 : (hostOps1 : List (HloOp τ sig (Elt Ideal))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer the operations before the first launch do not write is, at the first launch, as the program was entered. -/
private theorem keep0 (r : Ref sig .tc) (hr : r ∉ written0) :
    W1 m ρ c (Proc.devRef .tc r) = m ((c : Thread nD τ).loc r) :=
  (StableHlo.after_of_writes_sub hostOps0 _ writes0 hr).trans rfl

/-- A buffer the operations between the first two launches do not write is, at the second launch, as the first left it. -/
private theorem keep1 (r : Ref sig .tc) (hr : r ∉ written1) :
    W3 m ρ c (Proc.devRef .tc r) = W2 m ρ c (Proc.devRef .tc r) :=
  StableHlo.after_of_writes_sub hostOps1 _ writes1 hr

/-- An argument the first launch does not take, at that launch's exit. -/
private theorem W2_arg (r : Ref sig .tc) (h0 : ∀ w, Pipeline.arrRef spec0 w ≠ r) (hr : r ∉ written0) :
    W2 m ρ c (Proc.devRef .tc r) = m ((c : Thread nD τ).loc r) :=
  (W2_of_ne m ρ c r h0).trans (keep0 m ρ c r hr)

/-! ## The edge-dependent values, computed once before the first launch -/

/-- The edge sources. -/
private theorem W1_v1 : W1 m ρ c (Proc.devRef .tc main_v1) = srcOf (m ((c : Thread nD τ).loc main_arg1)) := by
  show StableHlo.after hostOps0 _ (Proc.devRef .tc main_v1) = _
  after_results_simp
  rfl

/-- The edge targets. -/
private theorem W1_v3 : W1 m ρ c (Proc.devRef .tc main_v3) = dstOf (m ((c : Thread nD τ).loc main_arg1)) := by
  show StableHlo.after hostOps0 _ (Proc.devRef .tc main_v3) = _
  after_results_simp
  rfl

set_option maxHeartbeats 4000000 in
/-- 1/deg per node. -/
private theorem W1_v11 : W1 m ρ c (Proc.devRef .tc main_v11) = dsq (m ((c : Thread nD τ).loc main_arg1)) := by
  show StableHlo.after hostOps0 _ (Proc.devRef .tc main_v11) = _
  after_results_simp
  rfl

set_option maxHeartbeats 4000000 in
/-- The scale of every edge. -/
private theorem W1_v26 : W1 m ρ c (Proc.devRef .tc main_v26) = norm (m ((c : Thread nD τ).loc main_arg1)) := by
  show StableHlo.after hostOps0 _ (Proc.devRef .tc main_v26) = _
  after_results_simp
  rfl

/-- The first launch writes none of them. -/
private theorem W2_v1 : W2 m ρ c (Proc.devRef .tc main_v1) = srcOf (m ((c : Thread nD τ).loc main_arg1)) :=
  (W2_of_ne m ρ c main_v1 (by decide)).trans (W1_v1 m ρ c)
private theorem W2_v3 : W2 m ρ c (Proc.devRef .tc main_v3) = dstOf (m ((c : Thread nD τ).loc main_arg1)) :=
  (W2_of_ne m ρ c main_v3 (by decide)).trans (W1_v3 m ρ c)
private theorem W2_v11 : W2 m ρ c (Proc.devRef .tc main_v11) = dsq (m ((c : Thread nD τ).loc main_arg1)) :=
  (W2_of_ne m ρ c main_v11 (by decide)).trans (W1_v11 m ρ c)
private theorem W2_v26 : W2 m ρ c (Proc.devRef .tc main_v26) = norm (m ((c : Thread nD τ).loc main_arg1)) :=
  (W2_of_ne m ρ c main_v26 (by decide)).trans (W1_v26 m ρ c)

/-! ## The first launch's inputs -/

theorem V1_arg0 : V1 m ρ c main_arg0 = m ((c : Thread nD τ).loc main_arg0) :=
  keep0 m ρ c main_arg0 (by decide)
theorem V1_arg2 : V1 m ρ c main_arg2 = m ((c : Thread nD τ).loc main_arg2) :=
  keep0 m ρ c main_arg2 (by decide)
/-- The projection's bias as one row. -/
theorem V1_v29 (q : Fin 128) : V1 m ρ c main_v29 (ix2 (0 : Fin 1) q) = m ((c : Thread nD τ).loc main_arg3) (ix1 q) := by
  -- the buffer holds the bias vector cast to one row; entry (0, q) of the row is entry q of the vector
  have h : V1 m ρ c main_v29 = shapeCast S1x128 (m ((c : Thread nD τ).loc main_arg3)) shapeCasts_S128_S1x128 := by
    show StableHlo.after hostOps0 _ (Proc.devRef .tc main_v29) = _
    after_results_simp
    rfl
  rw [h]
  exact shapeCast_a_1a_apply _ _ 0 q
/-- The first layer's weights. -/
theorem V1_v28 : V1 m ρ c main_v28 = W0 (m ((c : Thread nD τ).loc main_arg4)) := by
  show StableHlo.after hostOps0 _ (Proc.devRef .tc main_v28) = _
  after_results_simp
  rfl

/-! ## The second launch's inputs -/

set_option maxHeartbeats 4000000 in
/-- The rows aggregated along the edges from the first launch's product array. -/
theorem V3_v43 : V3 m ρ c main_v43 = agg (m ((c : Thread nD τ).loc main_arg1)) (V2 m ρ c main_v30_1) := by
  -- the operations between the launches gather the product array's rows at the wrapped sources, scale them by the
  -- edge scale and add them up at the targets, reading the sources, targets and scale computed before the first launch
  show StableHlo.after hostOps1 _ (Proc.devRef .tc main_v43) = _
  after_results_simp
  rw [W2_v1, W2_v3, W2_v26]
  rfl
theorem V3_v30_1 : V3 m ρ c main_v30_1 = V2 m ρ c main_v30_1 :=
  keep1 m ρ c main_v30_1 (by decide)
theorem V3_v30_0 : V3 m ρ c main_v30_0 = V2 m ρ c main_v30_0 :=
  keep1 m ρ c main_v30_0 (by decide)
/-- 1/deg as a column. -/
theorem V3_v48 (r : Fin 100000) : V3 m ρ c main_v48 (ix2 r (0 : Fin 1)) = dsq (m ((c : Thread nD τ).loc main_arg1)) (ix1 r) := by
  -- the buffer holds the per-node vector cast to a column; entry (r, 0) of the column is entry r of the vector
  have h : V3 m ρ c main_v48 = shapeCast S100000x1 (dsq (m ((c : Thread nD τ).loc main_arg1))) shapeCasts_S100000_S100000x1 := by
    show StableHlo.after hostOps1 _ (Proc.devRef .tc main_v48) = _
    after_results_simp
    rw [W2_v11]
    rfl
  rw [h]
  exact Cert.LibColCast.shapeCast_a_a1_apply _ _ r 0
/-- The first layer's bias as one row. -/
theorem V3_v49 (q : Fin 128) : V3 m ρ c main_v49 (ix2 (0 : Fin 1) q) = b0 (m ((c : Thread nD τ).loc main_arg5)) (ix1 q) := by
  -- the buffer holds row 0 of the stacked biases, as a vector, cast to one row
  have h : V3 m ρ c main_v49 = shapeCast S1x128 (b0 (m ((c : Thread nD τ).loc main_arg5))) shapeCasts_S128_S1x128 := by
    show StableHlo.after hostOps1 _ (Proc.devRef .tc main_v49) = _
    after_results_simp
    rw [W2_arg m ρ c main_arg5 (by decide) (by decide)]
    rfl
  rw [h]
  exact shapeCast_a_1a_apply _ _ 0 q
theorem V3_v50 (q : Fin 128) : V3 m ρ c main_v50 (ix2 (0 : Fin 1) q) = m ((c : Thread nD τ).loc main_arg6) (ix1 q) := by
  have h : V3 m ρ c main_v50 = shapeCast S1x128 (m ((c : Thread nD τ).loc main_arg6)) shapeCasts_S128_S1x128 := by
    show StableHlo.after hostOps1 _ (Proc.devRef .tc main_v50) = _
    after_results_simp
    rw [W2_arg m ρ c main_arg6 (by decide) (by decide)]
    rfl
  rw [h]
  exact shapeCast_a_1a_apply _ _ 0 q
theorem V3_v51 (q : Fin 128) : V3 m ρ c main_v51 (ix2 (0 : Fin 1) q) = m ((c : Thread nD τ).loc main_arg7) (ix1 q) := by
  have h : V3 m ρ c main_v51 = shapeCast S1x128 (m ((c : Thread nD τ).loc main_arg7)) shapeCasts_S128_S1x128 := by
    show StableHlo.after hostOps1 _ (Proc.devRef .tc main_v51) = _
    after_results_simp
    rw [W2_arg m ρ c main_arg7 (by decide) (by decide)]
    rfl
  rw [h]
  exact shapeCast_a_1a_apply _ _ 0 q
/-- The second layer's weights. -/
theorem V3_v47 : V3 m ρ c main_v47 = W1 (m ((c : Thread nD τ).loc main_arg4)) := by
  show StableHlo.after hostOps1 _ (Proc.devRef .tc main_v47) = _
  after_results_simp
  rw [W2_arg m ρ c main_arg4 (by decide) (by decide)]
  rfl

end Cert.KernelIdeal.Walk

end
-- ==== Proof.HostWalk5.lean ====
/-
  What each launch finds in the arrays it reads.  Between the launches the program applies array operations to the
  buffers; a buffer no operation and no launch writes keeps its contents.  Read back to the arguments, the arrays the
  launches are entered with are: the arguments themselves, a bias as one row, a layer's weights and bias cut out of the
  stacked arrays, the per-node scale 1/deg as a column, and the rows aggregated along the edges from the previous launch's
  product array.
-/
import proofs.«129568_j29695403884713_2_alg».proof.Proof.Gen.KernelIdeal.Frame
import proofs.«129568_j29695403884713_2_alg».proof.Proof.SpecK
import proofs.«129568_j29695403884713_2_alg».proof.Proof.LibColCast
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Walk5

open Cert.KernelIdeal Cert.KernelIdeal.Gen Cert.GcnK Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A buffer that none of a stretch's operations writes keeps its contents over the stretch. -/
local macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the first stretch of array operations leaves: the edge list's two rows, 1/deg per node, the scale of every edge -/

set_option maxHeartbeats 4000000 in
private theorem W1_v1 : W1 m ρ c (Proc.devRef .tc main_v1) = srcOf (m ((c : Thread nD τ).loc main_arg1)) := by
  show StableHlo.after hostOps0 (W0 m ρ c) (Proc.devRef .tc main_v1) = _
  after_results_simp
  rfl

set_option maxHeartbeats 4000000 in
private theorem W1_v3 : W1 m ρ c (Proc.devRef .tc main_v3) = dstOf (m ((c : Thread nD τ).loc main_arg1)) := by
  show StableHlo.after hostOps0 (W0 m ρ c) (Proc.devRef .tc main_v3) = _
  after_results_simp
  rfl

set_option maxHeartbeats 4000000 in
private theorem W1_v11 : W1 m ρ c (Proc.devRef .tc main_v11) = dsq (m ((c : Thread nD τ).loc main_arg1)) := by
  show StableHlo.after hostOps0 (W0 m ρ c) (Proc.devRef .tc main_v11) = _
  after_results_simp
  rfl

set_option maxHeartbeats 4000000 in
private theorem W1_v26 : W1 m ρ c (Proc.devRef .tc main_v26) = norm (m ((c : Thread nD τ).loc main_arg1)) := by
  show StableHlo.after hostOps0 (W0 m ρ c) (Proc.devRef .tc main_v26) = _
  after_results_simp
  rfl

/-! ## Neither the first two launches nor the second stretch write these buffers or the arguments: when the second
    launch returns they hold what the first stretch left, and the arguments what the program was started with -/

set_option maxHeartbeats 1000000 in
private theorem W4_v1 : W4 m ρ c (Proc.devRef .tc main_v1) = srcOf (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by keeps hostOps1
    _ = W1 m ρ c (Proc.devRef .tc main_v1) := W2_of_ne m ρ c main_v1 (by decide)
    _ = srcOf (m ((c : Thread nD τ).loc main_arg1)) := W1_v1 m ρ c

set_option maxHeartbeats 1000000 in
private theorem W4_v3 : W4 m ρ c (Proc.devRef .tc main_v3) = dstOf (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by keeps hostOps1
    _ = W1 m ρ c (Proc.devRef .tc main_v3) := W2_of_ne m ρ c main_v3 (by decide)
    _ = dstOf (m ((c : Thread nD τ).loc main_arg1)) := W1_v3 m ρ c

set_option maxHeartbeats 1000000 in
private theorem W4_v11 : W4 m ρ c (Proc.devRef .tc main_v11) = dsq (m ((c : Thread nD τ).loc main_arg1)) :=
  calc W4 m ρ c (Proc.devRef .tc main_v11)
    _ = W3 m ρ c (Proc.devRef .tc main_v11) := W4_of_ne m ρ c main_v11 (by decide)
    _ = W2 m ρ c (Proc.devRef .tc main_v11) := by keeps hostOps1
    _ = W1 m ρ c (Proc.devRef .tc main_v11) := W2_of_ne m ρ c main_v11 (by decide)
    _ = dsq (m ((c : Thread nD τ).loc main_arg1)) := W1_v11 m ρ c

set_option maxHeartbeats 1000000 in
private theorem W4_v26 : W4 m ρ c (Proc.devRef .tc main_v26) = norm (m ((c : Thread nD τ).loc main_arg1)) :=
  calc W4 m ρ c (Proc.devRef .tc main_v26)
    _ = W3 m ρ c (Proc.devRef .tc main_v26) := W4_of_ne m ρ c main_v26 (by decide)
    _ = W2 m ρ c (Proc.devRef .tc main_v26) := by keeps hostOps1
    _ = W1 m ρ c (Proc.devRef .tc main_v26) := W2_of_ne m ρ c main_v26 (by decide)
    _ = norm (m ((c : Thread nD τ).loc main_arg1)) := W1_v26 m ρ c

set_option maxHeartbeats 1000000 in
private theorem W4_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by keeps hostOps1
    _ = W1 m ρ c (Proc.devRef .tc main_arg5) := W2_of_ne m ρ c main_arg5 (by decide)
    _ = W0 m ρ c (Proc.devRef .tc main_arg5) := by keeps hostOps0
    _ = m ((c : Thread nD τ).loc main_arg5) := rfl

set_option maxHeartbeats 1000000 in
private theorem W4_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by keeps hostOps1
    _ = W1 m ρ c (Proc.devRef .tc main_arg6) := W2_of_ne m ρ c main_arg6 (by decide)
    _ = W0 m ρ c (Proc.devRef .tc main_arg6) := by keeps hostOps0
    _ = m ((c : Thread nD τ).loc main_arg6) := rfl

set_option maxHeartbeats 1000000 in
private theorem W4_arg7 : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by keeps hostOps1
    _ = W1 m ρ c (Proc.devRef .tc main_arg7) := W2_of_ne m ρ c main_arg7 (by decide)
    _ = W0 m ρ c (Proc.devRef .tc main_arg7) := by keeps hostOps0
    _ = m ((c : Thread nD τ).loc main_arg7) := rfl

/-! ## The third launch's inputs -/

set_option maxHeartbeats 4000000 in
/-- The rows aggregated along the edges from the second launch's product array. -/
theorem V5_v65 : V5 m ρ c main_v65 = agg (m ((c : Thread nD τ).loc main_arg1)) (V4 m ρ c main_v52_1) := by
  show StableHlo.after hostOps2 (W4 m ρ c) (Proc.devRef .tc main_v65) = _
  after_results_simp
  rw [W4_v1, W4_v3, W4_v26]
  rfl
set_option maxHeartbeats 1000000 in
theorem V5_v52_1 : V5 m ρ c main_v52_1 = V4 m ρ c main_v52_1 := by
  show StableHlo.after hostOps2 (W4 m ρ c) (Proc.devRef .tc main_v52_1) = W4 m ρ c (Proc.devRef .tc main_v52_1)
  keeps hostOps2
set_option maxHeartbeats 1000000 in
theorem V5_v52_0 : V5 m ρ c main_v52_0 = V4 m ρ c main_v52_0 := by
  show StableHlo.after hostOps2 (W4 m ρ c) (Proc.devRef .tc main_v52_0) = W4 m ρ c (Proc.devRef .tc main_v52_0)
  keeps hostOps2
set_option maxHeartbeats 1000000 in
theorem V5_v68 (r : Fin 100000) : V5 m ρ c main_v68 (ix2 r (0 : Fin 1)) = dsq (m ((c : Thread nD τ).loc main_arg1)) (ix1 r) := by
  have h : V5 m ρ c main_v68 = shapeCast S100000x1 (W4 m ρ c (Proc.devRef .tc main_v11)) shapeCasts_S100000_S100000x1 := by
    show StableHlo.after hostOps2 (W4 m ρ c) (Proc.devRef .tc main_v68) = _
    after_results_simp
    rfl
  rw [h, W4_v11]
  exact Cert.LibColCast.shapeCast_a_a1_apply _ _ _ _
set_option maxHeartbeats 1000000 in
/-- The second layer's bias as one row. -/
theorem V5_v69 (q : Fin 128) : V5 m ρ c main_v69 (ix2 (0 : Fin 1) q) = b1 (m ((c : Thread nD τ).loc main_arg5)) (ix1 q) := by
  have h : V5 m ρ c main_v69 = shapeCast S1x128 (b1 (W4 m ρ c (Proc.devRef .tc main_arg5))) shapeCasts_S128_S1x128 := by
    show StableHlo.after hostOps2 (W4 m ρ c) (Proc.devRef .tc main_v69) = _
    after_results_simp
    rfl
  rw [h, W4_arg5]
  exact shapeCast_a_1a_apply _ _ _ _
set_option maxHeartbeats 1000000 in
theorem V5_v70 (q : Fin 128) : V5 m ρ c main_v70 (ix2 (0 : Fin 1) q) = m ((c : Thread nD τ).loc main_arg6) (ix1 q) := by
  have h : V5 m ρ c main_v70 = shapeCast S1x128 (W4 m ρ c (Proc.devRef .tc main_arg6)) shapeCasts_S128_S1x128 := by
    show StableHlo.after hostOps2 (W4 m ρ c) (Proc.devRef .tc main_v70) = _
    after_results_simp
    rfl
  rw [h, W4_arg6]
  exact shapeCast_a_1a_apply _ _ _ _
set_option maxHeartbeats 1000000 in
theorem V5_v71 (q : Fin 128) : V5 m ρ c main_v71 (ix2 (0 : Fin 1) q) = m ((c : Thread nD τ).loc main_arg7) (ix1 q) := by
  have h : V5 m ρ c main_v71 = shapeCast S1x128 (W4 m ρ c (Proc.devRef .tc main_arg7)) shapeCasts_S128_S1x128 := by
    show StableHlo.after hostOps2 (W4 m ρ c) (Proc.devRef .tc main_v71) = _
    after_results_simp
    rfl
  rw [h, W4_arg7]
  exact shapeCast_a_1a_apply _ _ _ _

end Cert.KernelIdeal.Walk5

end
-- ==== Proof.Assembly.lean ====
/-
  The idealized kernel's result is the network of the arguments.

  Launch by launch: the first launch leaves the input projection X0 and its product XW0 with the first layer's weights;
  between the launches the rows of XW0 are aggregated along the edges; the second launch is entered with the aggregate,
  XW0, the per-node scale 1/deg, the first layer's bias, X0, and the normalisation's scale and shift, and leaves the first
  layer's output X1 and its product XW1 with the second layer's weights; the rows of XW1 are aggregated along the edges;
  the third launch leaves the second layer's output, which is the result.
-/
import proofs.«129568_j29695403884713_2_alg».proof.Proof.KernelRun
import proofs.«129568_j29695403884713_2_alg».proof.Proof.Spec
import proofs.«129568_j29695403884713_2_alg».proof.Proof.SpecBridge
import proofs.«129568_j29695403884713_2_alg».proof.Proof.Region0
import proofs.«129568_j29695403884713_2_alg».proof.Proof.Region1
import proofs.«129568_j29695403884713_2_alg».proof.Proof.Region2
import proofs.«129568_j29695403884713_2_alg».proof.Proof.HostWalk
import proofs.«129568_j29695403884713_2_alg».proof.Proof.HostWalk5

noncomputable section

namespace Cert.KernelIdeal.Net

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The network's intermediate arrays, as functions of the launch memory. -/
abbrev X0 : Cert.Gcn.Mat Ideal :=
  Cert.Gcn.proj (m ((c : Thread nD τ).loc main_arg0)) (m ((c : Thread nD τ).loc main_arg2)) (m ((c : Thread nD τ).loc main_arg3))
abbrev XW0 : Cert.Gcn.Mat Ideal := Cert.Gcn.dense (X0 m c) (Cert.Gcn.W0 (m ((c : Thread nD τ).loc main_arg4)))
abbrev X1 : Cert.Gcn.Mat Ideal :=
  Cert.Gcn.layer (m ((c : Thread nD τ).loc main_arg1)) (X0 m c) (XW0 m c) (Cert.Gcn.b0 (m ((c : Thread nD τ).loc main_arg5)))
    (m ((c : Thread nD τ).loc main_arg6)) (m ((c : Thread nD τ).loc main_arg7))
abbrev XW1 : Cert.Gcn.Mat Ideal := Cert.Gcn.dense (X1 m c) (Cert.Gcn.W1 (m ((c : Thread nD τ).loc main_arg4)))

/-- After the first launch: the projection. -/
theorem x0_eq : V2 m ρ c main_v30_0 = X0 m c := by
  have h := Cert.KernelIdeal.Regions.region0_x (V1 m ρ) c (m ((c : Thread nD τ).loc main_arg3)) (fun q => Cert.KernelIdeal.Walk.V1_v29 m ρ c q)
  rw [Cert.KernelIdeal.Walk.V1_arg0, Cert.KernelIdeal.Walk.V1_arg2] at h
  exact (hF0 m ρ c 4).symm.trans h

/-- After the first launch: the projection times the first layer's weights. -/
theorem xw0_eq : V2 m ρ c main_v30_1 = XW0 m c := by
  have h := Cert.KernelIdeal.Regions.region0_xw (V1 m ρ) c (m ((c : Thread nD τ).loc main_arg3)) (fun q => Cert.KernelIdeal.Walk.V1_v29 m ρ c q)
  rw [Cert.KernelIdeal.Walk.V1_arg0, Cert.KernelIdeal.Walk.V1_arg2, Cert.KernelIdeal.Walk.V1_v28, Cert.GcnBridge.W0_eq] at h
  exact (hF0 m ρ c 5).symm.trans h

/-- After the second launch: the first layer's output. -/
theorem x1_eq : V4 m ρ c main_v52_0 = X1 m c := by
  have h := Cert.KernelIdeal.Regions.region1_x (V3 m ρ) c (Cert.Gcn.dsq (m ((c : Thread nD τ).loc main_arg1)))
    (Cert.Gcn.b0 (m ((c : Thread nD τ).loc main_arg5))) (m ((c : Thread nD τ).loc main_arg6)) (m ((c : Thread nD τ).loc main_arg7))
    (fun r => (Cert.KernelIdeal.Walk.V3_v48 m ρ c r).trans (congrFun (Cert.GcnBridge.dsq_eq _) (ix1 r)))
    (fun q => (Cert.KernelIdeal.Walk.V3_v49 m ρ c q).trans (congrFun (Cert.GcnBridge.b0_eq _) (ix1 q)))
    (fun q => Cert.KernelIdeal.Walk.V3_v50 m ρ c q) (fun q => Cert.KernelIdeal.Walk.V3_v51 m ρ c q)
  rw [Cert.KernelIdeal.Walk.V3_v43, Cert.KernelIdeal.Walk.V3_v30_1, Cert.KernelIdeal.Walk.V3_v30_0, Cert.GcnBridge.agg_eq,
    xw0_eq, x0_eq] at h
  exact (hF1 m ρ c 8).symm.trans h

/-- After the second launch: the first layer's output times the second layer's weights. -/
theorem xw1_eq : V4 m ρ c main_v52_1 = XW1 m c := by
  have h := Cert.KernelIdeal.Regions.region1_xw (V3 m ρ) c (Cert.Gcn.dsq (m ((c : Thread nD τ).loc main_arg1)))
    (Cert.Gcn.b0 (m ((c : Thread nD τ).loc main_arg5))) (m ((c : Thread nD τ).loc main_arg6)) (m ((c : Thread nD τ).loc main_arg7))
    (fun r => (Cert.KernelIdeal.Walk.V3_v48 m ρ c r).trans (congrFun (Cert.GcnBridge.dsq_eq _) (ix1 r)))
    (fun q => (Cert.KernelIdeal.Walk.V3_v49 m ρ c q).trans (congrFun (Cert.GcnBridge.b0_eq _) (ix1 q)))
    (fun q => Cert.KernelIdeal.Walk.V3_v50 m ρ c q) (fun q => Cert.KernelIdeal.Walk.V3_v51 m ρ c q)
  rw [Cert.KernelIdeal.Walk.V3_v43, Cert.KernelIdeal.Walk.V3_v30_1, Cert.KernelIdeal.Walk.V3_v30_0, Cert.KernelIdeal.Walk.V3_v47,
    Cert.GcnBridge.agg_eq, Cert.GcnBridge.W1_eq, xw0_eq, x0_eq] at h
  exact (hF1 m ρ c 9).symm.trans h

/-- After the third launch the result buffer holds the network of the arguments. -/
theorem out_eq : W6 m ρ c (Proc.devRef .tc main_v72)
    = Cert.Gcn.model (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have h := Cert.KernelIdeal.Regions.region2_x (V5 m ρ) c (Cert.Gcn.dsq (m ((c : Thread nD τ).loc main_arg1)))
    (Cert.Gcn.b1 (m ((c : Thread nD τ).loc main_arg5))) (m ((c : Thread nD τ).loc main_arg6)) (m ((c : Thread nD τ).loc main_arg7))
    (fun r => (Cert.KernelIdeal.Walk5.V5_v68 m ρ c r).trans (congrFun (Cert.GcnBridge.dsq_eq _) (ix1 r)))
    (fun q => (Cert.KernelIdeal.Walk5.V5_v69 m ρ c q).trans (congrFun (Cert.GcnBridge.b1_eq _) (ix1 q)))
    (fun q => Cert.KernelIdeal.Walk5.V5_v70 m ρ c q) (fun q => Cert.KernelIdeal.Walk5.V5_v71 m ρ c q)
  rw [Cert.KernelIdeal.Walk5.V5_v65, Cert.KernelIdeal.Walk5.V5_v52_1, Cert.KernelIdeal.Walk5.V5_v52_0, Cert.GcnBridge.agg_eq,
    xw1_eq, x1_eq] at h
  exact (W6_arr m ρ c 7).trans h

end Cert.KernelIdeal.Net

end
-- ==== Proof.lean ====
/-
  A two-layer graph convolution network on 100000 nodes with 128 features, computed by three row-blocked kernel
  launches among gathers and scatter-adds along 1600000 edges, against the plain array program.

  Both programs compute, on the extended reals, the same function of the arguments (Proof/Spec.lean): the input
  projection max(X·Wp + bp, 0); then twice: the product with the layer's weights, the rows sent along the edges scaled by
  1/sqrt(deg s · deg d) and summed at the targets, plus the node's own row scaled by 1/deg, plus the bias, plus the
  layer's input; the row normalised to mean zero and variance one, scaled, shifted and cut at zero.  The kernel computes
  the dense parts block by block, 5000 rows at a time, with the next layer's product fused into the same launch; entry
  (r, q) of every dense part depends on row r alone (Proof/RowSpec.lean), so the blocks are the rows of the whole-array
  functions (Proof/Region0.lean, Region1.lean, Region2.lean).  The edge-dependent parts are the same array operations in
  both programs (Proof/HostWalk.lean, HostWalk5.lean, SpecBridge.lean).  No law of arithmetic beyond the meaning of the
  operations is used, so the inputs' finiteness is never needed; the ideal pass rewrote nothing, so the kernel's
  idealization is its own text.
-/
import proofs.«129568_j29695403884713_2_alg».proof.Defs
import proofs.«129568_j29695403884713_2_alg».proof.Proof.Gen.Kernel
import proofs.«129568_j29695403884713_2_alg».proof.Proof.Gen.Kernel.Skeleton
import proofs.«129568_j29695403884713_2_alg».proof.Proof.Gen.Kernel.Launch
import proofs.«129568_j29695403884713_2_alg».proof.Proof.Gen.Kernel.Points
import proofs.«129568_j29695403884713_2_alg».proof.Proof.Gen.Kernel.Frame
import proofs.«129568_j29695403884713_2_alg».proof.Proof.Gen.KernelIdeal
import proofs.«129568_j29695403884713_2_alg».proof.Proof.Gen.KernelIdeal.Skeleton
import proofs.«129568_j29695403884713_2_alg».proof.Proof.Gen.KernelIdeal.Launch
import proofs.«129568_j29695403884713_2_alg».proof.Proof.Gen.KernelIdeal.Points
import proofs.«129568_j29695403884713_2_alg».proof.Proof.Gen.KernelIdeal.Frame
import proofs.«129568_j29695403884713_2_alg».proof.Proof.Gen.ReferenceIdeal
import proofs.«129568_j29695403884713_2_alg».proof.Proof.Gen.Pre_finite_inputs
import proofs.«129568_j29695403884713_2_alg».proof.Proof.KernelRun
import proofs.«129568_j29695403884713_2_alg».proof.Proof.RefRun
import proofs.«129568_j29695403884713_2_alg».proof.Proof.RefModel
import proofs.«129568_j29695403884713_2_alg».proof.Proof.Assembly
import Idealize.ShloMosaic.Adequacy
import Idealize.ShloMosaic.Init

noncomputable section

namespace Cert.Proof

open Idealize.ShloMosaic Idealize.ShloMosaic.TcCoe Idealize.SL.Sem

/-- The kernel as printed runs, nothing faults, and its arguments end unchanged. -/
theorem frame_k : Cert.frame_Kernel := fun m ρ _ => Cert.Kernel.Gen.frame m ρ
/-- The same for the idealized kernel. -/
theorem frame_ki : Cert.frame_KernelIdeal := fun m ρ _ => Cert.KernelIdeal.Gen.frame m ρ
/-- The reference runs, nothing faults, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the network of the arguments in their result
    buffers, and with the arguments unchanged. -/
theorem algebraic : Cert.algebraic_KernelIdeal_ReferenceIdeal := by
  intro m ρ m' ρ' _ hagree
  refine ⟨fun c => Cert.Gcn.model (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Net.out_eq m ρ c), (h c).2⟩)
      (Cert.KernelIdeal.RunOut.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_model, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
